-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S8192 : Shape := ⟨1, ![8192]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : IVec S8192 32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  main_v3
-- ==== Kernel.lean ====
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x768 : Shape := ⟨2, ![1024, 768]⟩
abbrev S512x768 : Shape := ⟨2, ![512, 768]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 25
  | .vmem => 20
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x768, .bf16⟩
  | .hbm, ⟨3, _⟩ => ⟨S8192x768, .f32⟩
  | .hbm, ⟨4, _⟩ => ⟨S8192x768, .f32⟩
  | .hbm, ⟨5, _⟩ => ⟨S8192x768, .bf16⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x1, .i32⟩
  | .hbm, ⟨12, _⟩ => ⟨S1x8192, .i32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S1024x768, .bf16⟩
  | .local _ .vmem, ⟨5, _⟩ => ⟨S1024x768, .bf16⟩
  | .local _ .vmem, ⟨6, _⟩ => ⟨S512x768, .bf16⟩
  | .local _ .vmem, ⟨7, _⟩ => ⟨S512x768, .bf16⟩
  | .local _ .vmem, ⟨8, _⟩ => ⟨S1024x1, .f32⟩
  | .local _ .vmem, ⟨9, _⟩ => ⟨S1024x1, .f32⟩
  | .local _ .vmem, ⟨10, _⟩ => ⟨S1x512, .f32⟩
  | .local _ .vmem, ⟨11, _⟩ => ⟨S1x512, .f32⟩
  | .local _ .vmem, ⟨12, _⟩ => ⟨S1024x1, .i32⟩
  | .local _ .vmem, ⟨13, _⟩ => ⟨S1024x1, .i32⟩
  | .local _ .vmem, ⟨14, _⟩ => ⟨S1x512, .i32⟩
  | .local _ .vmem, ⟨15, _⟩ => ⟨S1x512, .i32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bitsLt_bf16_f32 : FTy.bits .bf16 < FTy.bits .f32
  reducesTo_S8192x768_S8192_d1 : S8192x768.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  natLt_1_32 : 1 < 32
  reduces_S1024x512_S1024 : S1024x512.Reduces [1] S1024
  shapeCasts_S1024_S1024x1 : S1024.ShapeCasts S1024x1
  bcast_S_S8192x1 : S_.BroadcastsInDim S8192x1 (![] : Fin 0 → Fin S8192x1.rank)
  reducesTo_S8192x1_S_d0_1 : S8192x1.ReducesTo [0, 1] S_
  dot_S1024x768_S512x768_S1024x512_1_1_0_0_n_n_wf : DotDims.WF S1024x768 S512x768 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .bf16 = 32 ∨ (Rect.block (s := S8192x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S8192x768.size a
  hwx0_2 : ∀ i : grid0.Coords, EltTy.bits .bf16 = 32 ∨ (Rect.block (s := S8192x768) S1024x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S8192x768.size a
  hwx0_3 : ∀ i : grid0.Coords, EltTy.bits .bf16 = 32 ∨ (Rect.block (s := S8192x768) S512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .i32 = 32 ∨ (Rect.block (s := S8192x1) S1024x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x8192.size a
  hwx0_7 : ∀ i : grid0.Coords, EltTy.bits .i32 = 32 ∨ (Rect.block (s := S1x8192) S1x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S8192x1.size a
  hwx0_9 : ∀ i : grid0.Coords, EltTy.bits .f32 = 32 ∨ (Rect.block (s := S8192x1) S1024x1.size (cc0_transform_9 i) (hinb0_9 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S768x8192 : Shape := ⟨2, ![768, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S768x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x768_S768x8192_1_0 : S8192x768.Transposes [1, 0] S768x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x768_S768x8192_S8192x8192_1_0_0_1_n_n_wf : DotDims.WF S8192x768 S768x8192 S8192x8192 [1] [0] [0] [1] [] []

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.K.Base.lean ====
/-
  The region of the kernel's @main seen from one core: what its buffers hold when the region is entered, the
  block of each window's array that a grid point works on, and the body's one branch.

  @main is eleven host operations, the region on an 8 × 16 grid, and ten more host operations.  The contents at the
  region's entry are the fold of the first eleven over the launch memory.  Point `t` of the grid has row-block
  `t / 16` and column-block `t % 16`; the body zeroes its two accumulators exactly at the points of column-block 0.
  An input window's staging buffer holds, at every point, the block of its array the point's index map names,
  whether it was fetched at that point or kept from the one before.
-/
import proofs.«114137_j7370163880494_2_alg».proof.Proof.Gen.Kernel.Launch
import proofs.«114137_j7370163880494_2_alg».proof.Proof.Gen.Kernel.Skeleton
import proofs.«114137_j7370163880494_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the host operations before it, folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

/-- @main reduces to the region continued by the later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data whose array is the
    entry contents and whose body leaves the block in place: fetched, it is the block; not fetched, the index has not
    moved since the last fetch. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional: the column-block coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 16), the first of each row-block. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs the body is called with -/

/-- One staging buffer of each output window, through which its contents are stated. -/
abbrev VO0_8 : View sig .tc .vmem S1024x1 .f32 := (Memref.whole cc0_stg8_0 : Memref sig .tc .vmem S1024x1 .f32).view
abbrev VO0_9 : View sig .tc .vmem S1024x1 .f32 := (Memref.whole cc0_stg9_0 : Memref sig .tc .vmem S1024x1 .f32).view
abbrev ms0_0 (t : Fin cfg0.N) : Memref sig .tc .vmem S1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)

end Cert.Kernel.Hand

end
-- ==== Proof.K.RunA.lean ====
/-
  The body at a point of column-block 0, run once on arbitrary whole staging buffers.

  At such a point the body first stores zeros over both accumulators, then loads the eight input blocks, forms the
  tile of similarities, and stores into each accumulator what it reads there plus the tile's row sums.  The run is
  symbolic execution of the body's memory operations; what it establishes is that every input buffer is left as it
  was and each output buffer ends as its starting contents overwritten by the list of pieces the stores wrote,
  last store first.  The two lists are found by the run itself.
-/
import proofs.«114137_j7370163880494_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two accumulators at a point where the branch is taken, with the proof
    that from whole staging buffers — the inputs at their contents, the accumulators at anything — the body runs to
    a continuation holding the inputs unchanged and each accumulator with its pieces written. -/
noncomputable def kernelRun0_A (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) :
    { L : List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__fuzzy_kernel_eq_skeleton]; unfold cc0__fuzzy_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

end Cert.Kernel.Hand

end
-- ==== Proof.K.RunB.lean ====
/-
  The body at a point of a later column-block, run once on arbitrary whole staging buffers.

  Here the branch is not taken: the body loads the eight input blocks, forms the tile of similarities, reads each
  accumulator as the point before left it, and stores back that plus the tile's row sums.  As in the other case
  the run leaves every input buffer as it was and each accumulator as its starting contents overwritten by the
  pieces the stores wrote; the pieces now depend on what the accumulators held.
-/
import proofs.«114137_j7370163880494_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two accumulators at a point where the branch is not taken, the
    accumulators starting at `xo8` and `xo9`, with the proof that the body runs to a continuation holding the inputs
    unchanged and each accumulator with its pieces written. -/
noncomputable def kernelRun0_B (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) :
    { L : List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__fuzzy_kernel_eq_skeleton]; unfold cc0__fuzzy_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

end Cert.Kernel.Hand

end
-- ==== Proof.K.Body.lean ====
/-
  The pipeline's proof data and the body obligation.

  What the two accumulators hold after the body at each grid point is defined by recursion on the point: at a
  point of column-block 0 the body's stores overwrite them outright; at any other point they are computed from what
  the point before left, which is still in the staging buffer because an accumulator is written back only after
  column-block 15.  Every input window's buffer holds its block at every point.  Two pairs of input windows read
  one array each (the row blocks and the column blocks of the same matrix): the core's full share of such an array
  is dealt half and half to the two windows.  With these data the body, run at any point, takes each buffer from
  what the pipeline hands it to what the data say it leaves.
-/
import proofs.«114137_j7370163880494_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover each accumulator -/

/-- At a point of column-block 0 the pieces tile the accumulator's block. -/
theorem cover0_A_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1.1 S1024x1.size (by sl_kernel_rfl) y

/-- What the case leaves in that accumulator: its pieces read back. -/
def out0_A_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) : Vec F S1024x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1.1)

/-- The same for the second accumulator. -/
theorem cover0_A_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1.2, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1.2 S1024x1.size (by sl_kernel_rfl) y

/-- What the case leaves in that accumulator: its pieces read back. -/
def out0_A_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) : Vec F S1024x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7).1.2)

/-- At a later column-block the pieces tile the accumulator's block. -/
theorem cover0_B_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.1 S1024x1.size (by sl_kernel_rfl) y

/-- What the case leaves in that accumulator: its pieces read back. -/
def out0_B_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) : Vec F S1024x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.1)

/-- The same for the second accumulator. -/
theorem cover0_B_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.2, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.2 S1024x1.size (by sl_kernel_rfl) y

/-- What the case leaves in that accumulator: its pieces read back. -/
def out0_B_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) : Vec F S1024x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.2)

/-! ## What the accumulators hold after each point -/

/-- The two accumulators' staging buffers after the body at position `n` of the grid: overwritten outright where the
    column-block is 0, else computed from what position `n - 1` left. -/
def outsAt0 (c : Dev nD) : (n : ℕ) → n < cfg0.N → Vec F S1024x1 .f32 × Vec F S1024x1 .f32
  | 0, hn =>
    (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
     out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2,
       out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)

/-- `outsAt0` at a point of column-block 0. -/
theorem outsAt0_A (c : Dev nD) (t : Fin cfg0.N) (h0 : t.val % 16 = 0) :
    outsAt0 m c t.val t.isLt =
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t),
       out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of a later column-block: over what the point before left. -/
theorem outsAt0_B (c : Dev nD) (t : Fin cfg0.N) (h0 : ¬t.val % 16 = 0) :
    outsAt0 m c t.val t.isLt =
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2,
       out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer
    at its block and the accumulators' at `outsAt0`; the invariant the scoped rest and the generator register;
    nothing owed; the two windows on one array hold half of the core's share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a point of a later column-block the first accumulator's buffer holds what the body left at the point before:
    the point is not the first and the buffer was not written back in between. -/
theorem before0_8_B (c : Dev nD) (t : Fin cfg0.N) (h0 : ¬t.val % 16 = 0) (d) :
    (dats m 0 c).before 8 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- The same for the second accumulator. -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' buffers hold their blocks; the column-block decides the case; at a later
    column-block each accumulator holds what the point before left; so that case's run applies, the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 16 = 0
  · rw [outsAt0_A m c t h0]
    dsimp only
    unfold out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
  · rw [outsAt0_B m c t h0]
    dsimp only
    simp only [before0_8_B m c t h0, before0_9_B m c t h0]
    unfold out0_B_8 out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch: from the body obligation to a run of the whole @main.

  The pipeline library's launch theorem for windows that may share arrays asks two things of the certificate.
  First, how the buffers behind the windows' arrays, each held whole, make the pipeline's arrays window by window:
  the matrix read by both its row-block window and its column-block window is dealt half of the share to each, and so
  is the second matrix.  Second, the host operations after the region: they read only the two accumulators' arrays
  and the buffers that bypass the region, so they run within those, the halves of the shared matrices riding along
  untouched.  The run's conclusion reads every window's array at the library's write-back recursion and every
  bypassing buffer at the fold of the later host operations over the region's exit contents.
-/
import proofs.«114137_j7370163880494_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (WinSpec arrRef restRefs restRefsP tailRefsBut arrPts withArrays unscopedRest unscopedRestP arrBufs ΦA)

/-! ## The pipeline's arrays, window by window -/

/-- The pipeline's arrays at contents `G`, as ten points-tos: the two windows on a shared matrix hold its left and
    right half-share. -/
theorem arrays_chain (c : Dev nD) (G : (w : Fin cfg0.W) → Buf (Elt F) ((cfg0.win w).arr.view.loc (c.tc : Thread nD τ))) :
    ((dats m 0 c).arrays G : sProp 𝕄) = iprop(
      (((c.tc : Thread nD τ).loc (Pipeline.arrRef spec0 0)) ↦{fullShare.left} G 0)
      ∗ (((c.tc : Thread nD τ).loc (Pipeline.arrRef spec0 1)) ↦{fullShare.right} G 1)
      ∗ (((c.tc : Thread nD τ).loc (Pipeline.arrRef spec0 2)) ↦{fullShare.left} G 2)
      ∗ (((c.tc : Thread nD τ).loc (Pipeline.arrRef spec0 3)) ↦{fullShare.right} G 3)
      ∗ (((c.tc : Thread nD τ).loc (Pipeline.arrRef spec0 4)) ↦{fullShare} G 4)
      ∗ (((c.tc : Thread nD τ).loc (Pipeline.arrRef spec0 5)) ↦{fullShare} G 5)
      ∗ (((c.tc : Thread nD τ).loc (Pipeline.arrRef spec0 6)) ↦{fullShare} G 6)
      ∗ (((c.tc : Thread nD τ).loc (Pipeline.arrRef spec0 7)) ↦{fullShare} G 7)
      ∗ (((c.tc : Thread nD τ).loc (Pipeline.arrRef spec0 8)) ↦{fullShare} G 8)
      ∗ (((c.tc : Thread nD τ).loc (Pipeline.arrRef spec0 9)) ↦{fullShare} G 9)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]
  rfl

/-- The buffers behind the windows' arrays are eight. -/
theorem arrBufs_chain (c : Dev nD) (W : (b : Ref sig .tc) → Buf (Elt F) ((c.tc : Thread nD τ).loc b)) :
    (arrBufs spec0 c W : sProp 𝕄) = iprop(
      (((c.tc : Thread nD τ).loc main_v0) ↦{fullShare} W main_v0) ∗ (((c.tc : Thread nD τ).loc main_v3) ↦{fullShare} W main_v3)
      ∗ (((c.tc : Thread nD τ).loc main_v6) ↦{fullShare} W main_v6) ∗ (((c.tc : Thread nD τ).loc main_v7) ↦{fullShare} W main_v7)
      ∗ (((c.tc : Thread nD τ).loc main_v8) ↦{fullShare} W main_v8) ∗ (((c.tc : Thread nD τ).loc main_v9) ↦{fullShare} W main_v9)
      ∗ (((c.tc : Thread nD τ).loc main_v10_0) ↦{fullShare} W main_v10_0) ∗ (((c.tc : Thread nD τ).loc main_v10_1) ↦{fullShare} W main_v10_1)) := by
  unfold Pipeline.arrBufs
  rw [bigSep_eq_bigSepL_of_eq [main_v0, main_v3, main_v6, main_v7, main_v8, main_v9, main_v10_0, main_v10_1] (by decide) (by decide)]
  rfl

/-- ENTRY.  The eight buffers held whole at the entry contents make the pipeline's arrays at entry: each shared
    matrix's full share splits into the two halves its windows hold. -/
theorem hsplit (c : Dev nD) : (arrBufs spec0 c (V m c) : sProp 𝕄) ⊢ (dats m 0 c).arrays ((dats m 0 c).arrAt · 0) := by
  rw [arrays_chain, arrBufs_chain]
  iintro ⟨H0, H3, H6, H7, H8, H9, Ha, Hb⟩
  ihave H0' := (pointsTo_share (PosShare.mem_left_op_right fullShare)).1 $$ H0
  icases H0' with ⟨H0l, H0r⟩
  ihave H3' := (pointsTo_share (PosShare.mem_left_op_right fullShare)).1 $$ H3
  icases H3' with ⟨H3l, H3r⟩
  isplitl [H0l]; · iexact H0l
  isplitl [H0r]; · iexact H0r
  isplitl [H3l]; · iexact H3l
  isplitl [H3r]; · iexact H3r
  isplitl [H6]; · iexact H6
  isplitl [H7]; · iexact H7
  isplitl [H8]; · iexact H8
  isplitl [H9]; · iexact H9
  isplitl [Ha]; · iexact Ha
  iexact Hb

/-! ## The host operations after the region -/

/-- The two accumulators' windows alone: their arrays are distinct buffers. -/
abbrev spec89 : Fin 2 → WinSpec sig grid0.rank := fun | 0 => spec0 8 | 1 => spec0 9 | ⟨_ + 2, h⟩ => absurd h (Nat.not_lt.2 (Nat.le_add_left _ _))
theorem spec89_inj : Function.Injective (arrRef spec89) := by decide

/-- The arrays of the eight input windows: the later host operations touch none of them. -/
abbrev inArrs : Finset (Ref sig .tc) := {main_v0, main_v3, main_v6, main_v7, main_v8, main_v9}

/-- Apart from the input windows' arrays, what bypasses the two accumulators' windows is what bypasses all ten. -/
theorem rest_eq : restRefsP sig Pipeline.Prefetch.none spec89 \ inArrs = restRefs sig spec0 := by decide

/-- The two accumulators' arrays after the last write-back. -/
def A89 (c : Dev nD) : (j : Fin 2) → Buf (Elt F) ((spec89 j).arr.view.loc (c.tc : Thread nD τ))
  | ⟨0, _⟩ => (dats m 0 c).arrAt 8 cfg0.N
  | ⟨1, _⟩ => (dats m 0 c).arrAt 9 cfg0.N

/-- The buffers' contents at the region's exit: the accumulators' arrays as written back, all else as at entry. -/
def Wexit (c : Dev nD) : Valuation τ sig (Elt F) := withArrays spec89 c (V0 m c) (A89 m c)

/-- What a buffer holds at the end: the later host operations folded over the exit contents. -/
def afterT (c : Dev nD) (b : Ref sig .tc) : Buf (Elt F) ((c.tc : Thread nD τ).loc b) :=
  StableHlo.after ([hostOps1] : List (List (HloOp τ sig (Elt F)))).flatten (Wexit m c) (Proc.devRef .tc b)

/-- The later host operations touch only the accumulators' arrays and bypassing buffers, none of the inputs' arrays. -/
theorem sfx_sub : ∀ ops ∈ ([hostOps1] : List (List (HloOp τ sig (Elt F)))), ∀ op ∈ ops,
    op.bufs ⊆ tailRefsBut sig Pipeline.Prefetch.none spec89 inArrs := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl | rfl | rfl | rfl | rfl | rfl | rfl | rfl | rfl <;>
    simp only [StableHlo.nullary_bufs, StableHlo.unary_bufs, StableHlo.binary_bufs] <;> decide
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write neither accumulator's array. -/
theorem sfx_keeps : ∀ ops ∈ ([hostOps1] : List (List (HloOp τ sig (Elt F)))), ∀ op ∈ ops,
    ∀ w, Proc.devRef .tc (arrRef spec89 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-- The accumulators' two points-tos, read as the two-window family's. -/
theorem arrPts89 (c : Dev nD) : (arrPts spec89 c (A89 m c) : sProp 𝕄)
    = iprop((((c.tc : Thread nD τ).loc (Pipeline.arrRef spec0 8)) ↦{fullShare} (dats m 0 c).arrAt 8 cfg0.N)
        ∗ (((c.tc : Thread nD τ).loc (Pipeline.arrRef spec0 9)) ↦{fullShare} (dats m 0 c).arrAt 9 cfg0.N)) := by
  unfold Pipeline.arrPts
  rw [bigSep_univ_eq_bigSepL [(0 : Fin 2), 1] (by decide) (by decide)]
  rfl

set_option backward.isDefEq.respectTransparency.types false in
/-- EXIT.  From the region's exit — the boundary, the pipeline's arrays as the write-backs left them, the bypassing
    buffers as at entry — the later host operations run within the accumulators' arrays and the bypassing buffers and
    hand back the arrays unchanged and the bypassing buffers at their fold over the exit contents. -/
theorem htail (c : Dev nD) (Q' : PUnit → sProp 𝕄) :
    iprop((iprop((dats m 0 c).arrays ((dats m 0 c).arrAt · cfg0.N)
              ∗ unscopedRestP (Ix := Unit) (Name := ℕ) (U := UR sig nD τ) (Lvl := ℕ) Pipeline.Prefetch.none spec0 c (afterT m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain (([hostOps1] : List (List (HloOp τ sig (Elt F)))).map StableHlo.seq)) Q' := by
  have key := Pipeline.tail_seqs_but (Ix := Unit) (Name := ℕ) (U := UR sig nD τ) (Lvl := ℕ) (fun q => (cfgs q).toPCfg (Val := Elt F)) defs₀ Variants.none
    Pipeline.Prefetch.none spec89 spec89_inj inArrs c (V0 m c) (A89 m c) [hostOps1] sfx_sub sfx_fresh sfx_keeps Q'
  rw [rest_eq, arrPts89] at key
  rw [arrays_chain, Pipeline.unscopedRestP_none, Pipeline.unscopedRestP_none]
  refine BIBase.Entails.trans ?_ key
  unfold Pipeline.unscopedRest
  iintro ⟨Hk, Hb, ⟨H0, H1, H2, H3, H4, H5, H6, H7, H8, H9⟩, HZ⟩
  isplitl [Hk H0 H1 H2 H3 H4 H5 H6 H7]
  · iintro ⟨⟨H8, H9⟩, HR⟩
    iapply Hk
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HR
  isplitl [Hb]; · iexact Hb
  isplitl [H8 H9]
  · isplitl [H8]; · iexact H8
    iexact H9
  iexact HZ

/-! ## The run -/

/-- The run's conclusion: every window's array at the library's write-back recursion, every bypassing buffer at the
    later host operations' fold over the exit contents. -/
def Post (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restRefs sig spec0, r.2.mem ((c.tc : Thread nD τ).loc b) = afterT m c b

set_option backward.isDefEq.respectTransparency.types false in
set_option maxHeartbeats 1600000 in
/-- At the compiled mesh, for any float values, from any memory with zero counters: every weakly fair execution of
    @main terminates without a fault in a state satisfying `Post`. -/
theorem run_main : θ_run defs (onTc (τ := τ) (main (F := F))) (s₀ m ρ) (Post m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain (([hostOps1] : List (List (HloOp τ sig (Elt F)))).map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (afterT m c))
    (hX := fun c => by
      iintro ⟨HU, -, -, -, Hp, -⟩; imodintro
      isplitl [Hp]; · iexists _; iexact Hp
      iexact HU)
    (hin := fun c => by
      show _ ⊢ ΦA spec0 c
      unfold Pipeline.ΦA; iintro ⟨Hp, -, Hr⟩
      isplitl [Hr] <;> iassumption)
    (hout := fun c => by
      show ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ restRefsP sig Pipeline.Prefetch.none spec0, s.mem ((c.tc : Thread nD τ).loc b) = afterT m c b)
    (hY := fun c s' => by
      iintro ⟨-, HU, HSI⟩
      unfold Pipeline.unscopedRestP
      imodintro
      iapply (pointsTo_read_all (restRefsP sig Pipeline.Prefetch.none spec0) (fun b => (c.tc : Thread nD τ).loc b) (afterT m c) s')
      isplitl [HU] <;> iassumption)
    (hQ := fun s h c => ⟨(h c).1, Pipeline.rest_of_restP Pipeline.Prefetch.none spec0 (fun k => k.elim0) c (afterT m c) s (fun k => k.elim0) (fun k => k.elim0) (h c).2.2⟩)

end Cert.Kernel.Hand

end
-- ==== Proof.K.Frame.lean ====
/-
  The frame: the program runs to the end without a fault and leaves its two argument arrays as they were launched.

  Neither argument is a window's array, so each bypasses the region; no host operation before or after the region
  writes it; so what the run's conclusion says it holds at the end is what it held at launch.
-/
import proofs.«114137_j7370163880494_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation after the region writes the first argument either: it ends as launched. -/
theorem T_main_arg0 (c : Dev nD) : afterT m c main_arg0 = m ((c : Thread nD τ).loc main_arg0) := by
  unfold afterT Wexit
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg0 (by exact (by decide : ∀ w, Pipeline.arrRef spec89 w ≠ main_arg0))]
  exact V_main_arg0 m c
/-- The same for the second argument. -/
theorem T_main_arg1 (c : Dev nD) : afterT m c main_arg1 = m ((c : Thread nD τ).loc main_arg1) := by
  unfold afterT Wexit
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec89 w ≠ main_arg1))]
  exact V_main_arg1 m c

/-- THE FRAME, at any float instance: every weakly fair execution terminates without a fault with both argument
    arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (T_main_arg0 m c),
     ((h c).2 main_arg1 (Pipeline.mem_restRefs_of main_arg1 (by decide) (by decide))).trans (T_main_arg1 m c)⟩) (run_main m ρ)

end Cert.Kernel.Hand

end
-- ==== Proof.KI.Base.lean ====
/-
  The region of the kernel's @main seen from one core: what its buffers hold when the region is entered, the
  block of each window's array that a grid point works on, and the body's one branch.

  @main is eleven host operations, the region on an 8 × 16 grid, and ten more host operations.  The contents at the
  region's entry are the fold of the first eleven over the launch memory.  Point `t` of the grid has row-block
  `t / 16` and column-block `t % 16`; the body zeroes its two accumulators exactly at the points of column-block 0.
  An input window's staging buffer holds, at every point, the block of its array the point's index map names,
  whether it was fetched at that point or kept from the one before.
-/
import proofs.«114137_j7370163880494_2_alg».proof.Proof.Gen.KernelIdeal.Launch
import proofs.«114137_j7370163880494_2_alg».proof.Proof.Gen.KernelIdeal.Skeleton
import proofs.«114137_j7370163880494_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the host operations before it, folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

/-- @main reduces to the region continued by the later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data whose array is the
    entry contents and whose body leaves the block in place: fetched, it is the block; not fetched, the index has not
    moved since the last fetch. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional: the column-block coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 16), the first of each row-block. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs the body is called with -/

/-- One staging buffer of each output window, through which its contents are stated. -/
abbrev VO0_8 : View sig .tc .vmem S1024x1 .f32 := (Memref.whole cc0_stg8_0 : Memref sig .tc .vmem S1024x1 .f32).view
abbrev VO0_9 : View sig .tc .vmem S1024x1 .f32 := (Memref.whole cc0_stg9_0 : Memref sig .tc .vmem S1024x1 .f32).view
abbrev ms0_0 (t : Fin cfg0.N) : Memref sig .tc .vmem S1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)

end Cert.KernelIdeal.Hand

end
-- ==== Proof.KI.RunA.lean ====
/-
  The body at a point of column-block 0, run once on arbitrary whole staging buffers.

  At such a point the body first stores zeros over both accumulators, then loads the eight input blocks, forms the
  tile of similarities, and stores into each accumulator what it reads there plus the tile's row sums.  The run is
  symbolic execution of the body's memory operations; what it establishes is that every input buffer is left as it
  was and each output buffer ends as its starting contents overwritten by the list of pieces the stores wrote,
  last store first.  The two lists are found by the run itself.
-/
import proofs.«114137_j7370163880494_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two accumulators at a point where the branch is taken, with the proof
    that from whole staging buffers — the inputs at their contents, the accumulators at anything — the body runs to
    a continuation holding the inputs unchanged and each accumulator with its pieces written. -/
noncomputable def kernelRun0_A (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) :
    { L : List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__fuzzy_kernel_eq_skeleton]; unfold cc0__fuzzy_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

end Cert.KernelIdeal.Hand

end
-- ==== Proof.KI.RunB.lean ====
/-
  The body at a point of a later column-block, run once on arbitrary whole staging buffers.

  Here the branch is not taken: the body loads the eight input blocks, forms the tile of similarities, reads each
  accumulator as the point before left it, and stores back that plus the tile's row sums.  As in the other case
  the run leaves every input buffer as it was and each accumulator as its starting contents overwritten by the
  pieces the stores wrote; the pieces now depend on what the accumulators held.
-/
import proofs.«114137_j7370163880494_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two accumulators at a point where the branch is not taken, the
    accumulators starting at `xo8` and `xo9`, with the proof that the body runs to a continuation holding the inputs
    unchanged and each accumulator with its pieces written. -/
noncomputable def kernelRun0_B (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) :
    { L : List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__fuzzy_kernel_eq_skeleton]; unfold cc0__fuzzy_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

end Cert.KernelIdeal.Hand

end
-- ==== Proof.KI.Body.lean ====
/-
  The pipeline's proof data and the body obligation.

  What the two accumulators hold after the body at each grid point is defined by recursion on the point: at a
  point of column-block 0 the body's stores overwrite them outright; at any other point they are computed from what
  the point before left, which is still in the staging buffer because an accumulator is written back only after
  column-block 15.  Every input window's buffer holds its block at every point.  Two pairs of input windows read
  one array each (the row blocks and the column blocks of the same matrix): the core's full share of such an array
  is dealt half and half to the two windows.  With these data the body, run at any point, takes each buffer from
  what the pipeline hands it to what the data say it leaves.
-/
import proofs.«114137_j7370163880494_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover each accumulator -/

/-- At a point of column-block 0 the pieces tile the accumulator's block. -/
theorem cover0_A_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1.1 S1024x1.size (by sl_kernel_rfl) y

/-- What the case leaves in that accumulator: its pieces read back. -/
def out0_A_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) : Vec F S1024x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1.1)

/-- The same for the second accumulator. -/
theorem cover0_A_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1.2, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1.2 S1024x1.size (by sl_kernel_rfl) y

/-- What the case leaves in that accumulator: its pieces read back. -/
def out0_A_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) : Vec F S1024x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7).1.2)

/-- At a later column-block the pieces tile the accumulator's block. -/
theorem cover0_B_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.1 S1024x1.size (by sl_kernel_rfl) y

/-- What the case leaves in that accumulator: its pieces read back. -/
def out0_B_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) : Vec F S1024x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.1)

/-- The same for the second accumulator. -/
theorem cover0_B_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.2, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.2 S1024x1.size (by sl_kernel_rfl) y

/-- What the case leaves in that accumulator: its pieces read back. -/
def out0_B_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) : Vec F S1024x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1.2)

/-! ## What the accumulators hold after each point -/

/-- The two accumulators' staging buffers after the body at position `n` of the grid: overwritten outright where the
    column-block is 0, else computed from what position `n - 1` left. -/
def outsAt0 (c : Dev nD) : (n : ℕ) → n < cfg0.N → Vec F S1024x1 .f32 × Vec F S1024x1 .f32
  | 0, hn =>
    (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
     out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2,
       out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)

/-- `outsAt0` at a point of column-block 0. -/
theorem outsAt0_A (c : Dev nD) (t : Fin cfg0.N) (h0 : t.val % 16 = 0) :
    outsAt0 m c t.val t.isLt =
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t),
       out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of a later column-block: over what the point before left. -/
theorem outsAt0_B (c : Dev nD) (t : Fin cfg0.N) (h0 : ¬t.val % 16 = 0) :
    outsAt0 m c t.val t.isLt =
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2,
       out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer
    at its block and the accumulators' at `outsAt0`; the invariant the scoped rest and the generator register;
    nothing owed; the two windows on one array hold half of the core's share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a point of a later column-block the first accumulator's buffer holds what the body left at the point before:
    the point is not the first and the buffer was not written back in between. -/
theorem before0_8_B (c : Dev nD) (t : Fin cfg0.N) (h0 : ¬t.val % 16 = 0) (d) :
    (dats m 0 c).before 8 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- The same for the second accumulator. -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' buffers hold their blocks; the column-block decides the case; at a later
    column-block each accumulator holds what the point before left; so that case's run applies, the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 16 = 0
  · rw [outsAt0_A m c t h0]
    dsimp only
    unfold out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
  · rw [outsAt0_B m c t h0]
    dsimp only
    simp only [before0_8_B m c t h0, before0_9_B m c t h0]
    unfold out0_B_8 out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch: from the body obligation to a run of the whole @main.

  The pipeline library's launch theorem for windows that may share arrays asks two things of the certificate.
  First, how the buffers behind the windows' arrays, each held whole, make the pipeline's arrays window by window:
  the matrix read by both its row-block window and its column-block window is dealt half of the share to each, and so
  is the second matrix.  Second, the host operations after the region: they read only the two accumulators' arrays
  and the buffers that bypass the region, so they run within those, the halves of the shared matrices riding along
  untouched.  The run's conclusion reads every window's array at the library's write-back recursion and every
  bypassing buffer at the fold of the later host operations over the region's exit contents.
-/
import proofs.«114137_j7370163880494_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (WinSpec arrRef restRefs restRefsP tailRefsBut arrPts withArrays unscopedRest unscopedRestP arrBufs ΦA)

/-! ## The pipeline's arrays, window by window -/

/-- The pipeline's arrays at contents `G`, as ten points-tos: the two windows on a shared matrix hold its left and
    right half-share. -/
theorem arrays_chain (c : Dev nD) (G : (w : Fin cfg0.W) → Buf (Elt F) ((cfg0.win w).arr.view.loc (c.tc : Thread nD τ))) :
    ((dats m 0 c).arrays G : sProp 𝕄) = iprop(
      (((c.tc : Thread nD τ).loc (Pipeline.arrRef spec0 0)) ↦{fullShare.left} G 0)
      ∗ (((c.tc : Thread nD τ).loc (Pipeline.arrRef spec0 1)) ↦{fullShare.right} G 1)
      ∗ (((c.tc : Thread nD τ).loc (Pipeline.arrRef spec0 2)) ↦{fullShare.left} G 2)
      ∗ (((c.tc : Thread nD τ).loc (Pipeline.arrRef spec0 3)) ↦{fullShare.right} G 3)
      ∗ (((c.tc : Thread nD τ).loc (Pipeline.arrRef spec0 4)) ↦{fullShare} G 4)
      ∗ (((c.tc : Thread nD τ).loc (Pipeline.arrRef spec0 5)) ↦{fullShare} G 5)
      ∗ (((c.tc : Thread nD τ).loc (Pipeline.arrRef spec0 6)) ↦{fullShare} G 6)
      ∗ (((c.tc : Thread nD τ).loc (Pipeline.arrRef spec0 7)) ↦{fullShare} G 7)
      ∗ (((c.tc : Thread nD τ).loc (Pipeline.arrRef spec0 8)) ↦{fullShare} G 8)
      ∗ (((c.tc : Thread nD τ).loc (Pipeline.arrRef spec0 9)) ↦{fullShare} G 9)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]
  rfl

/-- The buffers behind the windows' arrays are eight. -/
theorem arrBufs_chain (c : Dev nD) (W : (b : Ref sig .tc) → Buf (Elt F) ((c.tc : Thread nD τ).loc b)) :
    (arrBufs spec0 c W : sProp 𝕄) = iprop(
      (((c.tc : Thread nD τ).loc main_v0) ↦{fullShare} W main_v0) ∗ (((c.tc : Thread nD τ).loc main_v3) ↦{fullShare} W main_v3)
      ∗ (((c.tc : Thread nD τ).loc main_v6) ↦{fullShare} W main_v6) ∗ (((c.tc : Thread nD τ).loc main_v7) ↦{fullShare} W main_v7)
      ∗ (((c.tc : Thread nD τ).loc main_v8) ↦{fullShare} W main_v8) ∗ (((c.tc : Thread nD τ).loc main_v9) ↦{fullShare} W main_v9)
      ∗ (((c.tc : Thread nD τ).loc main_v10_0) ↦{fullShare} W main_v10_0) ∗ (((c.tc : Thread nD τ).loc main_v10_1) ↦{fullShare} W main_v10_1)) := by
  unfold Pipeline.arrBufs
  rw [bigSep_eq_bigSepL_of_eq [main_v0, main_v3, main_v6, main_v7, main_v8, main_v9, main_v10_0, main_v10_1] (by decide) (by decide)]
  rfl

/-- ENTRY.  The eight buffers held whole at the entry contents make the pipeline's arrays at entry: each shared
    matrix's full share splits into the two halves its windows hold. -/
theorem hsplit (c : Dev nD) : (arrBufs spec0 c (V m c) : sProp 𝕄) ⊢ (dats m 0 c).arrays ((dats m 0 c).arrAt · 0) := by
  rw [arrays_chain, arrBufs_chain]
  iintro ⟨H0, H3, H6, H7, H8, H9, Ha, Hb⟩
  ihave H0' := (pointsTo_share (PosShare.mem_left_op_right fullShare)).1 $$ H0
  icases H0' with ⟨H0l, H0r⟩
  ihave H3' := (pointsTo_share (PosShare.mem_left_op_right fullShare)).1 $$ H3
  icases H3' with ⟨H3l, H3r⟩
  isplitl [H0l]; · iexact H0l
  isplitl [H0r]; · iexact H0r
  isplitl [H3l]; · iexact H3l
  isplitl [H3r]; · iexact H3r
  isplitl [H6]; · iexact H6
  isplitl [H7]; · iexact H7
  isplitl [H8]; · iexact H8
  isplitl [H9]; · iexact H9
  isplitl [Ha]; · iexact Ha
  iexact Hb

/-! ## The host operations after the region -/

/-- The two accumulators' windows alone: their arrays are distinct buffers. -/
abbrev spec89 : Fin 2 → WinSpec sig grid0.rank := fun | 0 => spec0 8 | 1 => spec0 9 | ⟨_ + 2, h⟩ => absurd h (Nat.not_lt.2 (Nat.le_add_left _ _))
theorem spec89_inj : Function.Injective (arrRef spec89) := by decide

/-- The arrays of the eight input windows: the later host operations touch none of them. -/
abbrev inArrs : Finset (Ref sig .tc) := {main_v0, main_v3, main_v6, main_v7, main_v8, main_v9}

/-- Apart from the input windows' arrays, what bypasses the two accumulators' windows is what bypasses all ten. -/
theorem rest_eq : restRefsP sig Pipeline.Prefetch.none spec89 \ inArrs = restRefs sig spec0 := by decide

/-- The two accumulators' arrays after the last write-back. -/
def A89 (c : Dev nD) : (j : Fin 2) → Buf (Elt F) ((spec89 j).arr.view.loc (c.tc : Thread nD τ))
  | ⟨0, _⟩ => (dats m 0 c).arrAt 8 cfg0.N
  | ⟨1, _⟩ => (dats m 0 c).arrAt 9 cfg0.N

/-- The buffers' contents at the region's exit: the accumulators' arrays as written back, all else as at entry. -/
def Wexit (c : Dev nD) : Valuation τ sig (Elt F) := withArrays spec89 c (V0 m c) (A89 m c)

/-- What a buffer holds at the end: the later host operations folded over the exit contents. -/
def afterT (c : Dev nD) (b : Ref sig .tc) : Buf (Elt F) ((c.tc : Thread nD τ).loc b) :=
  StableHlo.after ([hostOps1] : List (List (HloOp τ sig (Elt F)))).flatten (Wexit m c) (Proc.devRef .tc b)

/-- The later host operations touch only the accumulators' arrays and bypassing buffers, none of the inputs' arrays. -/
theorem sfx_sub : ∀ ops ∈ ([hostOps1] : List (List (HloOp τ sig (Elt F)))), ∀ op ∈ ops,
    op.bufs ⊆ tailRefsBut sig Pipeline.Prefetch.none spec89 inArrs := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl | rfl | rfl | rfl | rfl | rfl | rfl | rfl | rfl <;>
    simp only [StableHlo.nullary_bufs, StableHlo.unary_bufs, StableHlo.binary_bufs] <;> decide
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write neither accumulator's array. -/
theorem sfx_keeps : ∀ ops ∈ ([hostOps1] : List (List (HloOp τ sig (Elt F)))), ∀ op ∈ ops,
    ∀ w, Proc.devRef .tc (arrRef spec89 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-- The accumulators' two points-tos, read as the two-window family's. -/
theorem arrPts89 (c : Dev nD) : (arrPts spec89 c (A89 m c) : sProp 𝕄)
    = iprop((((c.tc : Thread nD τ).loc (Pipeline.arrRef spec0 8)) ↦{fullShare} (dats m 0 c).arrAt 8 cfg0.N)
        ∗ (((c.tc : Thread nD τ).loc (Pipeline.arrRef spec0 9)) ↦{fullShare} (dats m 0 c).arrAt 9 cfg0.N)) := by
  unfold Pipeline.arrPts
  rw [bigSep_univ_eq_bigSepL [(0 : Fin 2), 1] (by decide) (by decide)]
  rfl

set_option backward.isDefEq.respectTransparency.types false in
/-- EXIT.  From the region's exit — the boundary, the pipeline's arrays as the write-backs left them, the bypassing
    buffers as at entry — the later host operations run within the accumulators' arrays and the bypassing buffers and
    hand back the arrays unchanged and the bypassing buffers at their fold over the exit contents. -/
theorem htail (c : Dev nD) (Q' : PUnit → sProp 𝕄) :
    iprop((iprop((dats m 0 c).arrays ((dats m 0 c).arrAt · cfg0.N)
              ∗ unscopedRestP (Ix := Unit) (Name := ℕ) (U := UR sig nD τ) (Lvl := ℕ) Pipeline.Prefetch.none spec0 c (afterT m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain (([hostOps1] : List (List (HloOp τ sig (Elt F)))).map StableHlo.seq)) Q' := by
  have key := Pipeline.tail_seqs_but (Ix := Unit) (Name := ℕ) (U := UR sig nD τ) (Lvl := ℕ) (fun q => (cfgs q).toPCfg (Val := Elt F)) defs₀ Variants.none
    Pipeline.Prefetch.none spec89 spec89_inj inArrs c (V0 m c) (A89 m c) [hostOps1] sfx_sub sfx_fresh sfx_keeps Q'
  rw [rest_eq, arrPts89] at key
  rw [arrays_chain, Pipeline.unscopedRestP_none, Pipeline.unscopedRestP_none]
  refine BIBase.Entails.trans ?_ key
  unfold Pipeline.unscopedRest
  iintro ⟨Hk, Hb, ⟨H0, H1, H2, H3, H4, H5, H6, H7, H8, H9⟩, HZ⟩
  isplitl [Hk H0 H1 H2 H3 H4 H5 H6 H7]
  · iintro ⟨⟨H8, H9⟩, HR⟩
    iapply Hk
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HR
  isplitl [Hb]; · iexact Hb
  isplitl [H8 H9]
  · isplitl [H8]; · iexact H8
    iexact H9
  iexact HZ

/-! ## The run -/

/-- The run's conclusion: every window's array at the library's write-back recursion, every bypassing buffer at the
    later host operations' fold over the exit contents. -/
def Post (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restRefs sig spec0, r.2.mem ((c.tc : Thread nD τ).loc b) = afterT m c b

set_option backward.isDefEq.respectTransparency.types false in
set_option maxHeartbeats 1600000 in
/-- At the compiled mesh, for any float values, from any memory with zero counters: every weakly fair execution of
    @main terminates without a fault in a state satisfying `Post`. -/
theorem run_main : θ_run defs (onTc (τ := τ) (main (F := F))) (s₀ m ρ) (Post m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain (([hostOps1] : List (List (HloOp τ sig (Elt F)))).map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (afterT m c))
    (hX := fun c => by
      iintro ⟨HU, -, -, -, Hp, -⟩; imodintro
      isplitl [Hp]; · iexists _; iexact Hp
      iexact HU)
    (hin := fun c => by
      show _ ⊢ ΦA spec0 c
      unfold Pipeline.ΦA; iintro ⟨Hp, -, Hr⟩
      isplitl [Hr] <;> iassumption)
    (hout := fun c => by
      show ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ restRefsP sig Pipeline.Prefetch.none spec0, s.mem ((c.tc : Thread nD τ).loc b) = afterT m c b)
    (hY := fun c s' => by
      iintro ⟨-, HU, HSI⟩
      unfold Pipeline.unscopedRestP
      imodintro
      iapply (pointsTo_read_all (restRefsP sig Pipeline.Prefetch.none spec0) (fun b => (c.tc : Thread nD τ).loc b) (afterT m c) s')
      isplitl [HU] <;> iassumption)
    (hQ := fun s h c => ⟨(h c).1, Pipeline.rest_of_restP Pipeline.Prefetch.none spec0 (fun k => k.elim0) c (afterT m c) s (fun k => k.elim0) (fun k => k.elim0) (h c).2.2⟩)

end Cert.KernelIdeal.Hand

end
-- ==== Proof.KI.Frame.lean ====
/-
  The frame: the program runs to the end without a fault and leaves its two argument arrays as they were launched.

  Neither argument is a window's array, so each bypasses the region; no host operation before or after the region
  writes it; so what the run's conclusion says it holds at the end is what it held at launch.
-/
import proofs.«114137_j7370163880494_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation after the region writes the first argument either: it ends as launched. -/
theorem T_main_arg0 (c : Dev nD) : afterT m c main_arg0 = m ((c : Thread nD τ).loc main_arg0) := by
  unfold afterT Wexit
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg0 (by exact (by decide : ∀ w, Pipeline.arrRef spec89 w ≠ main_arg0))]
  exact V_main_arg0 m c
/-- The same for the second argument. -/
theorem T_main_arg1 (c : Dev nD) : afterT m c main_arg1 = m ((c : Thread nD τ).loc main_arg1) := by
  unfold afterT Wexit
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec89 w ≠ main_arg1))]
  exact V_main_arg1 m c

/-- THE FRAME, at any float instance: every weakly fair execution terminates without a fault with both argument
    arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (T_main_arg0 m c),
     ((h c).2 main_arg1 (Pipeline.mem_restRefs_of main_arg1 (by decide) (by decide))).trans (T_main_arg1 m c)⟩) (run_main m ρ)

end Cert.KernelIdeal.Hand

end
-- ==== Proof.KV.Pieces.lean ====
/-
  What each case of the body leaves in the two accumulators, as values.

  One point's update: from the eight input blocks the body forms the tile of similarities; the first accumulator
  becomes what it held plus the row sums of the tile masked to equal labels, the second what it held plus the plain
  row sums.  At a point of column-block 0 "what it held" is the zero block the body has just stored there.  The run
  found these as lists of stored pieces; here each list is read back as the one value its covering store wrote.
-/
import proofs.«114137_j7370163880494_2_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- One point's update of the first accumulator from the input blocks and what the accumulator held. -/
def step8 (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (prev : Vec F S1024x1 .f32) : Vec F S1024x1 .f32 :=
  k0_pay1 (k0_pay5 x0 x1 x2 x3 x4 x5) (k0_pay6 x7) (k0_pay7 x6) prev

/-- One point's update of the second accumulator. -/
def step9 (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (prev : Vec F S1024x1 .f32) : Vec F S1024x1 .f32 :=
  k0_pay2 (k0_pay5 x0 x1 x2 x3 x4 x5) prev

/-- At a later column-block the first accumulator ends at its update of what it held. -/
theorem out_B_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xo8 xo9 = step8 x0 x1 x2 x3 x4 x5 x6 x7 xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xo8 xo9)]
  unfold kernelRun0_B
  dsimp only
  rw [View.canon_unit_zero hz]
  unfold step8
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S512x768) hz, View.ld_unit_zero (S := S1024x1) hz, View.ld_unit_zero (S := S1x512) hz]

/-- And the second at its update of what it held. -/
theorem out_B_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : ¬cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) (xo8 : Vec F S1024x1 .f32) (xo9 : Vec F S1024x1 .f32) :
    out0_B_9 c i arg2 harg2 arg3 harg3 arg4 harg4 arg5 harg5 arg6 harg6 arg7 harg7 arg8 harg8 arg9 harg9 arg10 harg10 arg11 harg11 hc0 x0 x1 x2 x3 x4 x5 x6 x7 xo8 xo9 = step9 x0 x1 x2 x3 x4 x5 x6 x7 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 x7 xo8 xo9)]
  unfold kernelRun0_B
  dsimp only
  rw [View.canon_unit_zero hz]
  unfold step9
  simp only [View.readAt_eq_ld, harg2.read_unread, harg3.read_unread, harg4.read_unread, harg5.read_unread, harg6.read_unread, harg7.read_unread, harg8.read_unread, harg9.read_unread, harg11.read_unread, View.ld_unit_zero (S := S1024x768) hz, View.ld_unit_zero (S := S512x768) hz, View.ld_unit_zero (S := S1024x1) hz, View.ld_unit_zero (S := S1x512) hz]

/-- At column-block 0 the first accumulator ends at its update of the zero block. -/
theorem out_A_8 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) :
    out0_A_8 c i arg2 harg2 arg3 harg3 arg4 harg4 arg5 harg5 arg6 harg6 arg7 harg7 arg8 harg8 arg9 harg9 arg10 harg10 arg11 harg11 hc0 x0 x1 x2 x3 x4 x5 x6 x7 = step8 x0 x1 x2 x3 x4 x5 x6 x7 (k0_pay3 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S1024x1) hz, View.readCov_unit_zero (S := S1024x1) _ hz]
  unfold step8
  simp only [View.readAt_eq_ld, harg2.read_unread, harg3.read_unread, harg4.read_unread, harg5.read_unread, harg6.read_unread, harg7.read_unread, harg8.read_unread, harg9.read_unread, View.ld_unit_zero (S := S1024x768) hz, View.ld_unit_zero (S := S512x768) hz, View.ld_unit_zero (S := S1024x1) hz, View.ld_unit_zero (S := S1x512) hz]

/-- And the second at its update of the zero block. -/
theorem out_A_9 (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x768 .bf16) (harg4 : arg4.IsWhole) (arg5 : Memref sig .tc .vmem S512x768 .bf16) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .i32) (harg8 : arg8.IsWhole) (arg9 : Memref sig .tc .vmem S1x512 .i32) (harg9 : arg9.IsWhole) (arg10 : Memref sig .tc .vmem S1024x1 .f32) (harg10 : arg10.IsWhole) (arg11 : Memref sig .tc .vmem S1024x1 .f32) (harg11 : arg11.IsWhole) (hc0 : cond0_0 i)
    (x0 : Vec F S1024x768 .bf16) (x1 : Vec F S512x768 .bf16) (x2 : Vec F S1024x768 .bf16) (x3 : Vec F S512x768 .bf16) (x4 : Vec F S1024x1 .f32) (x5 : Vec F S1x512 .f32) (x6 : Vec F S1024x1 .i32) (x7 : Vec F S1x512 .i32) :
    out0_A_9 c i arg2 harg2 arg3 harg3 arg4 harg4 arg5 harg5 arg6 harg6 arg7 harg7 arg8 harg8 arg9 harg9 arg10 harg10 arg11 harg11 hc0 x0 x1 x2 x3 x4 x5 x6 x7 = step9 x0 x1 x2 x3 x4 x5 x6 x7 (k0_pay4 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S1024x1) hz, View.readCov_unit_zero (S := S1024x1) _ hz]
  unfold step9
  simp only [View.readAt_eq_ld, harg2.read_unread, harg3.read_unread, harg4.read_unread, harg5.read_unread, harg6.read_unread, harg7.read_unread, harg8.read_unread, harg9.read_unread, View.ld_unit_zero (S := S1024x768) hz, View.ld_unit_zero (S := S512x768) hz, View.ld_unit_zero (S := S1024x1) hz, View.ld_unit_zero (S := S1x512) hz]

/-! ## The recursion over grid points, in these terms -/

/-- At a point of column-block 0 the accumulators are the updates of the zero blocks. -/
theorem outs_A (c : Dev nD) (t : Fin cfg0.N) (hA : t.val % 16 = 0) :
    outsAt0 m c t.val t.isLt = (step8 (iblk m c 0 t) (iblk m c 1 t) (iblk m c 2 t) (iblk m c 3 t) (iblk m c 4 t) (iblk m c 5 t) (iblk m c 6 t) (iblk m c 7 t) (k0_pay3 (F := F)), step9 (iblk m c 0 t) (iblk m c 1 t) (iblk m c 2 t) (iblk m c 3 t) (iblk m c 4 t) (iblk m c 5 t) (iblk m c 6 t) (iblk m c 7 t) (k0_pay4 (F := F))) := by
  rw [outsAt0_A m c t hA, out_A_8, out_A_9]

/-- At a point of a later column-block they are the updates of what the point before left. -/
theorem outs_B (c : Dev nD) (n : ℕ) (h : n + 1 < cfg0.N) (hB : ¬(n + 1) % 16 = 0) :
    outsAt0 m c (n + 1) h
      = (step8 (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).1,
         step9 (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2) := by
  rw [outsAt0_B m c ⟨n + 1, h⟩ hB, out_B_8, out_B_9]
  rfl

end Cert.KernelIdeal.Hand

end
-- ==== Proof.Val.PayValue.lean ====
/-
  The kernel body's payloads, read at an index given by coordinates.

  One grid step of the kernel works on a block of 1024 rows against a block of 512 columns.  It forms
  the block of similarities: three matrix products of a 1024 by 768 block with the transpose of a
  512 by 768 block (rows times rows: entry (p, q) is the inner product of row p of the left block
  and row q of the right block), their sum, the column of row norms spread over the columns plus
  the row of column norms spread over the rows, minus twice the products, times minus one half,
  exponentiated.  It then adds to each of two running columns the row sums over the 512 columns of the
  block: of the similarities times the zero/one mask of equal labels, and of the similarities.

  Every lemma reads one payload at an index.  The elementwise operations read their operands at the
  same index; a broadcast, a cast between [1024] and [1024, 1], a sum along the columns and a matrix
  product read their operands at indices computed from the result's index, which for an index given
  by coordinates is again one given by coordinates.
-/
import proofs.«114137_j7370163880494_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Three layout operations at an index given by coordinates -/

section Layout
variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`: both have
    row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The sum along the columns of a block -/

/-- The sum of a 1024 by 512 block along its columns, from the zero word, holds at `p` the sum over
    the 512 columns of row `p`. -/
theorem laneSum_at (v : FVec Ideal S1024x512 .f32) (hφ : FKind.Formats .f32)
    (hacc : (0x00000000#32 : BitVec 32) = 0x00000000#32) (p : Fin 1024) :
    multiReduction (F := Ideal) .add [1] S1024 v 0x00000000#32 reduces_S1024x512_S1024 hφ hacc (ix1 p)
      = ∑ q : Fin 512, v (ix2 p q) := by
  refine (Ideal.multiReduction_add_single v 0x00000000#32 reduces_S1024x512_S1024 hφ hacc (ix1 p)).trans ?_
  refine Finset.sum_congr rfl fun q _ => congrArg v ?_
  exact funext fun a => Fin.ext (by match a with | ⟨0, _⟩ => rfl | ⟨1, _⟩ => rfl)

/-! ## The running column of plain row sums -/

/-- One step of the plain sum: the running column at `(p, 0)` plus the sum of row `p` of the block. -/
theorem totStep_at (v28 : FVec Ideal S1024x512 .f32) (v45 : Vec Ideal S1024x1 .f32) (p : Fin 1024) :
    k0_pay2 (F := Ideal) v28 v45 (ix2 p (0 : Fin 1)) = v45 (ix2 p (0 : Fin 1)) + ∑ q : Fin 512, v28 (ix2 p q) := by
  unfold k0_pay2
  rw [addf_apply, shapeCast_self, shapeCast_a_a1_apply, laneSum_at]

/-! ## The two columns start at zero; the labels pass through -/

/-- The masked running column starts at zero. -/
theorem zero_at (j : S1024x1.Idx) : k0_pay3 (F := Ideal) j = 0 := by
  unfold k0_pay3
  rw [broadcast_apply]
  exact Ideal.ofBits_zero_f32

/-- The plain running column starts at zero. -/
theorem zero_at' (j : S1024x1.Idx) : k0_pay4 (F := Ideal) j = 0 := by
  unfold k0_pay4
  rw [broadcast_apply]
  exact Ideal.ofBits_zero_f32

/-- The row of the block's column labels is read as it is. -/
theorem labCol_at (v31 : Vec Ideal S1x512 .i32) (j : S1x512.Idx) : k0_pay6 (F := Ideal) v31 j = v31 j := by
  unfold k0_pay6
  rw [shapeCast_self]

/-- The column of the block's row labels, spread over the 512 columns: entry `(p, q)` is the label of row `p`. -/
theorem labRow_at (v29 : Vec Ideal S1024x1 .i32) (p : Fin 1024) (q : Fin 512) :
    k0_pay7 (F := Ideal) v29 (ix2 p q) = v29 (ix2 p (0 : Fin 1)) := by
  unfold k0_pay7
  rw [broadcastTo_a1_ab_apply, shapeCast_self]

/-! ## The mask of equal labels, as numbers -/

/-- An integer comparison of two blocks at an index compares the elements. -/
theorem cmpi_apply {s : Shape} {w : ℕ} (pr : CmpIPredicate) (x y : IVec s w) (i : s.Idx) :
    cmpi pr x y i = IntOp.cmpi pr (x i) (y i) := rfl

/-- Comparing a word with itself for equality answers the bit one. -/
theorem cmpi_eq_self (a : BitVec 32) : IntOp.cmpi .eq a a = 1#1 := by
  unfold IntOp.cmpi
  rw [beq_self_eq_true]
  rfl

/-- Comparing two different words for equality answers the bit zero. -/
theorem cmpi_eq_of_ne {a b : BitVec 32} (h : a ≠ b) : IntOp.cmpi .eq a b = 0#1 := by
  unfold IntOp.cmpi
  rw [beq_eq_false_iff_ne.mpr h]
  rfl

/-- The bit one, widened to 32 bits and read as a signed integer, is the number one. -/
theorem sitofp_one : FloatOps.sitofp (F := Ideal) .f32 ((1#1 : BitVec 1).setWidth 32) = 1 := by
  show (((((1#1 : BitVec 1).setWidth 32).toInt : ℤ) : ℝ) : EReal) = 1
  rw [show ((1#1 : BitVec 1).setWidth 32).toInt = 1 by decide, Int.cast_one, EReal.coe_one]

/-- The bit zero, widened to 32 bits and read as a signed integer, is the number zero. -/
theorem sitofp_zero : FloatOps.sitofp (F := Ideal) .f32 ((0#1 : BitVec 1).setWidth 32) = 0 := by
  show (((((0#1 : BitVec 1).setWidth 32).toInt : ℤ) : ℝ) : EReal) = 0
  rw [show ((0#1 : BitVec 1).setWidth 32).toInt = 0 by decide, Int.cast_zero, EReal.coe_zero]

/-- So the equality test of two labels, widened and made a float, is one where they agree and zero elsewhere. -/
theorem mask_eq (a b : BitVec 32) :
    FloatOps.sitofp (F := Ideal) .f32 ((IntOp.cmpi .eq a b).setWidth 32) = if a = b then 1 else 0 := by
  by_cases h : a = b
  · rw [if_pos h, h, cmpi_eq_self, sitofp_one]
  · rw [if_neg h, cmpi_eq_of_ne h, sitofp_zero]

/-! ## The running column of masked row sums -/

/-- One step of the masked sum: the running column at `(p, 0)` plus the sum over the block's columns
    `q` of the similarity at `(p, q)` times one or zero as the label of row `p` is that of column `q` or not. -/
theorem posStep_at (v28 : FVec Ideal S1024x512 .f32) (v32 : IVec S1x512 32) (v33 : IVec S1024x512 32)
    (v38 : Vec Ideal S1024x1 .f32) (p : Fin 1024) :
    k0_pay1 (F := Ideal) v28 v32 v33 v38 (ix2 p (0 : Fin 1))
      = v38 (ix2 p (0 : Fin 1))
        + ∑ q : Fin 512, v28 (ix2 p q) * (if v33 (ix2 p q) = v32 (ix2 (0 : Fin 1) q) then (1 : EReal) else 0) := by
  unfold k0_pay1
  rw [addf_apply, shapeCast_self, shapeCast_a_a1_apply, laneSum_at]
  refine congrArg (_ + ·) (Finset.sum_congr rfl fun q _ => ?_)
  rw [mulf_apply, sitofp_apply, extui_apply, cmpi_apply, broadcastTo_1b_ab_apply, mask_eq]

/-! ## A product of a block of rows with the transpose of a block of rows -/

/-- The dimension numbers of the kernel's three products: the second axis of both operands is
    contracted, the first axes are the result's rows and columns. -/
abbrev D : DotDims S1024x768 S512x768 S1024x512 := dot_S1024x768_S512x768_S1024x512_1_1_0_0_n_n

/-- The left operand is read in the result's row … -/
theorem lhs_row (i : S1024x512.Idx) (k : D.contr.Idx) : (D.lhsIdx i k 0).val = (i 0).val := by
  unfold DotDims.lhsIdx
  rw [dif_neg (show ¬(0 : Fin S1024x768.rank) ∈ D.lhsBatch by decide),
    dif_pos (show (0 : Fin S1024x768.rank) ∈ D.lhsNonContracting by decide)]
  rfl

/-- … at the contracted position. -/
theorem lhs_col (i : S1024x512.Idx) (k : D.contr.Idx) : (D.lhsIdx i k 1).val = (k ⟨0, by decide⟩).val :=
  D.lhsIdx_val_of_single rfl i k

/-- The right operand is read in the row that is the result's column … -/
theorem rhs_row (i : S1024x512.Idx) (k : D.contr.Idx) : (D.rhsIdx i k 0).val = (i 1).val := by
  unfold DotDims.rhsIdx
  rw [dif_neg (show ¬(0 : Fin S512x768.rank) ∈ D.rhsBatch by decide),
    dif_pos (show (0 : Fin S512x768.rank) ∈ D.rhsNonContracting by decide)]
  rfl

/-- … at the contracted position. -/
theorem rhs_col (i : S1024x512.Idx) (k : D.contr.Idx) : (D.rhsIdx i k 1).val = (k ⟨0, by decide⟩).val :=
  D.rhsIdx_val_of_single rfl i k

/-- Into a zero accumulator the product holds, at `(p, q)`, the inner product of row `p` of the left
    block and row `q` of the right block: the sum over the one contracted axis, re-indexed by its
    coordinate. -/
theorem rowsTimesRows_at (L : FVec Ideal S1024x768 .bf16) (R : FVec Ideal S512x768 .bf16) (p : Fin 1024) (q : Fin 512) :
    matmul (F := Ideal) D none L R (constant S1024x512 .f32 0x00000000#32) (ix2 p q)
      = ∑ k : Fin 768, L (ix2 p k) * R (ix2 q k) := by
  show FloatOps.matmul D none L R (constant S1024x512 .f32 0x00000000#32) (ix2 p q) = _
  rw [Ideal.matmul_constant_zero_apply, ← Equiv.sum_comp (contrEquiv1 D 768 rfl rfl).symm]
  refine Finset.sum_congr rfl fun k _ => ?_
  have hk := contrEquiv1_symm_val D 768 rfl rfl k
  have el : D.lhsIdx (ix2 p q) ((contrEquiv1 D 768 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 768 rfl rfl).symm k) = ix2 q k := funext fun a => Fin.ext (by
    match a with
    | ⟨0, _⟩ => exact rhs_row _ _
    | ⟨1, _⟩ => exact (rhs_col _ _).trans hk)
  rw [el, er]

/-! ## The block of similarities -/

/-- An exponential of a block at an index is the exponential of the element. -/
theorem exp_apply {s : Shape} (a : FVec Ideal s .f32) (i : s.Idx) : exp a i = Ideal.exp (a i) := rfl

/-- Entry `(p, q)` of the block of similarities: the exponential of minus one half times the sum of
    the two norms minus twice the sum of the three inner products. -/
theorem tile_at (x0 x2 : Vec Ideal S1024x768 .bf16) (x1 x3 : Vec Ideal S512x768 .bf16)
    (x4 : Vec Ideal S1024x1 .f32) (x5 : Vec Ideal S1x512 .f32) (p : Fin 1024) (q : Fin 512) :
    k0_pay5 (F := Ideal) x0 x1 x2 x3 x4 x5 (ix2 p q)
      = Ideal.exp (((x4 (ix2 p (0 : Fin 1)) + x5 (ix2 (0 : Fin 1) q))
          - Ideal.ofBits .f32 0x40000000#32
            * (((∑ k : Fin 768, x0 (ix2 p k) * x1 (ix2 q k)) + (∑ k : Fin 768, x0 (ix2 p k) * x3 (ix2 q k)))
                + (∑ k : Fin 768, x2 (ix2 p k) * x1 (ix2 q k))))
        * Ideal.ofBits .f32 0xBF000000#32) := by
  unfold k0_pay5
  simp only [shapeCast_self]
  rw [exp_apply, mulf_apply, subf_apply, addf_apply, mulf_apply, addf_apply, addf_apply,
    broadcast_apply, broadcast_apply, broadcastTo_a1_ab_apply, broadcastTo_1b_ab_apply,
    rowsTimesRows_at, rowsTimesRows_at, rowsTimesRows_at]
  rfl

end Cert.KernelIdeal.PayValue

end
-- ==== Proof.Val.Blocks.lean ====
/-
  Each input window's block at a grid point, read at an index, is the array the region finds at the
  point's row block or column block.

  The grid has 8 row blocks of 1024 rows and 16 column blocks of 512 columns; point `t` of its 128
  points, in row-major order, has row block `t / 16` and column block `t % 16`.  A window's block at
  `t` starts, along each axis, at the window's block index there times the block's size, so
  coordinate `p` inside the block is coordinate `index × size + p` of the array.  The block indices
  are read off the printed index maps once, for all 128 points.
-/
import proofs.«114137_j7370163880494_2_alg».proof.Proof.KI.Base
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Hand Idealize.ShloMosaic Idealize.ShloMosaic.ValueIdx
  Idealize.ShloMosaic.TcCoe Idealize.SL.Sem

/-! ## Rows and columns of a grid point's blocks -/

/-- A grid point is one of 128. -/
theorem point_lt (t : Fin cfg0.N) : t.val < 128 := lt_of_lt_of_eq t.isLt N_0

/-- Row `p` of the row block of point `t` is row `1024 (t / 16) + p` of the matrix. -/
def rowOf (t : Fin cfg0.N) (p : Fin 1024) : Fin 8192 :=
  ⟨(t.val / 16) * 1024 + p.val, by have := point_lt t; have := p.isLt; omega⟩

/-- Column `q` of the column block of point `t` is column `512 (t % 16) + q`. -/
def colOf (t : Fin cfg0.N) (q : Fin 512) : Fin 8192 :=
  ⟨(t.val % 16) * 512 + q.val, by have := q.isLt; omega⟩

/-! ## The windows' block indices at every point -/

/-- Windows 0, 2, 4 and 6 follow the row block. -/
theorem idx0 : ∀ t : Fin cfg0.N, win0_0.index t (0 : Fin 2) = t.val / 16 ∧ win0_0.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)
theorem idx4 : ∀ t : Fin cfg0.N, win0_4.index t (0 : Fin 2) = t.val / 16 ∧ win0_4.index t (1 : Fin 2) = 0 :=
  (by decide +kernel : ∀ t : Fin grid0.N, _)
theorem idx6 : ∀ t : Fin cfg0.N, win0_6.index t (0 : Fin 2) = t.val / 16 ∧ win0_6.index t (1 : Fin 2) = 0 :=
  (by decide +kernel : ∀ t : Fin grid0.N, _)
/-- Windows 1 and 3 follow the column block along their rows. -/
theorem idx1 : ∀ t : Fin cfg0.N, win0_1.index t (0 : Fin 2) = t.val % 16 ∧ win0_1.index t (1 : Fin 2) = 0 :=
  (by decide +kernel : ∀ t : Fin grid0.N, _)
theorem idx3 : ∀ t : Fin cfg0.N, win0_3.index t (0 : Fin 2) = t.val % 16 ∧ win0_3.index t (1 : Fin 2) = 0 :=
  (by decide +kernel : ∀ t : Fin grid0.N, _)
/-- Windows 5 and 7 follow the column block along their columns. -/
theorem idx5 : ∀ t : Fin cfg0.N, win0_5.index t (0 : Fin 2) = 0 ∧ win0_5.index t (1 : Fin 2) = t.val % 16 :=
  (by decide +kernel : ∀ t : Fin grid0.N, _)
theorem idx7 : ∀ t : Fin cfg0.N, win0_7.index t (0 : Fin 2) = 0 ∧ win0_7.index t (1 : Fin 2) = t.val % 16 :=
  (by decide +kernel : ∀ t : Fin grid0.N, _)

section Read

variable {F : FTy → Type} [FloatOps F] (m : (ℓ : Loc nD τ sig) → Buf (Elt F) ℓ) (c : Dev nD)

/-! ## The blocks at an index -/

/-- Window 0: the row block of the high part. -/
theorem blk0 (t : Fin cfg0.N) (p : Fin 1024) (k : Fin 768) :
    (iblk m c 0 t : Vec F S1024x768 .bf16) (ix2 p k) = V m c main_v0 (ix2 (rowOf t p) k) := by
  unfold iblk
  rw [View.read_apply]
  show V m c main_v0 _ = V m c main_v0 _
  refine congrArg _ ?_
  funext a
  apply Fin.ext
  match a with
  | ⟨0, _⟩ =>
    show win0_0.index t 0 * 1024 + 1 * p.val = (t.val / 16) * 1024 + p.val
    rw [(idx0 t).1]; omega
  | ⟨1, _⟩ =>
    show win0_0.index t 1 * 768 + 1 * k.val = k.val
    rw [(idx0 t).2]; omega

/-- Window 1: the column block's rows of the high part. -/
theorem blk1 (t : Fin cfg0.N) (q : Fin 512) (k : Fin 768) :
    (iblk m c 1 t : Vec F S512x768 .bf16) (ix2 q k) = V m c main_v0 (ix2 (colOf t q) k) := by
  unfold iblk
  rw [View.read_apply]
  show V m c main_v0 _ = V m c main_v0 _
  refine congrArg _ ?_
  funext a
  apply Fin.ext
  match a with
  | ⟨0, _⟩ =>
    show win0_1.index t 0 * 512 + 1 * q.val = (t.val % 16) * 512 + q.val
    rw [(idx1 t).1]; omega
  | ⟨1, _⟩ =>
    show win0_1.index t 1 * 768 + 1 * k.val = k.val
    rw [(idx1 t).2]; omega

/-- Window 2: the row block of the low part. -/
theorem blk2 (t : Fin cfg0.N) (p : Fin 1024) (k : Fin 768) :
    (iblk m c 2 t : Vec F S1024x768 .bf16) (ix2 p k) = V m c main_v3 (ix2 (rowOf t p) k) := by
  unfold iblk
  rw [View.read_apply]
  show V m c main_v3 _ = V m c main_v3 _
  refine congrArg _ ?_
  funext a
  apply Fin.ext
  match a with
  | ⟨0, _⟩ =>
    show win0_2.index t 0 * 1024 + 1 * p.val = (t.val / 16) * 1024 + p.val
    rw [(idx2 t).1]; omega
  | ⟨1, _⟩ =>
    show win0_2.index t 1 * 768 + 1 * k.val = k.val
    rw [(idx2 t).2]; omega

/-- Window 3: the column block's rows of the low part. -/
theorem blk3 (t : Fin cfg0.N) (q : Fin 512) (k : Fin 768) :
    (iblk m c 3 t : Vec F S512x768 .bf16) (ix2 q k) = V m c main_v3 (ix2 (colOf t q) k) := by
  unfold iblk
  rw [View.read_apply]
  show V m c main_v3 _ = V m c main_v3 _
  refine congrArg _ ?_
  funext a
  apply Fin.ext
  match a with
  | ⟨0, _⟩ =>
    show win0_3.index t 0 * 512 + 1 * q.val = (t.val % 16) * 512 + q.val
    rw [(idx3 t).1]; omega
  | ⟨1, _⟩ =>
    show win0_3.index t 1 * 768 + 1 * k.val = k.val
    rw [(idx3 t).2]; omega

/-- Window 4: the row block of the column of norms. -/
theorem blk4 (t : Fin cfg0.N) (p : Fin 1024) :
    (iblk m c 4 t : Vec F S1024x1 .f32) (ix2 p (0 : Fin 1)) = V m c main_v6 (ix2 (rowOf t p) (0 : Fin 1)) := by
  unfold iblk
  rw [View.read_apply]
  show V m c main_v6 _ = V m c main_v6 _
  refine congrArg _ ?_
  funext a
  apply Fin.ext
  match a with
  | ⟨0, _⟩ =>
    show win0_4.index t 0 * 1024 + 1 * p.val = (t.val / 16) * 1024 + p.val
    rw [(idx4 t).1]; omega
  | ⟨1, _⟩ =>
    show win0_4.index t 1 * 1 + 1 * 0 = 0
    rw [(idx4 t).2]

/-- Window 5: the column block of the row of norms. -/
theorem blk5 (t : Fin cfg0.N) (q : Fin 512) :
    (iblk m c 5 t : Vec F S1x512 .f32) (ix2 (0 : Fin 1) q) = V m c main_v7 (ix2 (0 : Fin 1) (colOf t q)) := by
  unfold iblk
  rw [View.read_apply]
  show V m c main_v7 _ = V m c main_v7 _
  refine congrArg _ ?_
  funext a
  apply Fin.ext
  match a with
  | ⟨0, _⟩ =>
    show win0_5.index t 0 * 1 + 1 * 0 = 0
    rw [(idx5 t).1]
  | ⟨1, _⟩ =>
    show win0_5.index t 1 * 512 + 1 * q.val = (t.val % 16) * 512 + q.val
    rw [(idx5 t).2]; omega

/-- Window 6: the row block of the column of labels. -/
theorem blk6 (t : Fin cfg0.N) (p : Fin 1024) :
    (iblk m c 6 t : Vec F S1024x1 .i32) (ix2 p (0 : Fin 1)) = V m c main_v8 (ix2 (rowOf t p) (0 : Fin 1)) := by
  unfold iblk
  rw [View.read_apply]
  show V m c main_v8 _ = V m c main_v8 _
  refine congrArg _ ?_
  funext a
  apply Fin.ext
  match a with
  | ⟨0, _⟩ =>
    show win0_6.index t 0 * 1024 + 1 * p.val = (t.val / 16) * 1024 + p.val
    rw [(idx6 t).1]; omega
  | ⟨1, _⟩ =>
    show win0_6.index t 1 * 1 + 1 * 0 = 0
    rw [(idx6 t).2]

/-- Window 7: the column block of the row of labels. -/
theorem blk7 (t : Fin cfg0.N) (q : Fin 512) :
    (iblk m c 7 t : Vec F S1x512 .i32) (ix2 (0 : Fin 1) q) = V m c main_v9 (ix2 (0 : Fin 1) (colOf t q)) := by
  unfold iblk
  rw [View.read_apply]
  show V m c main_v9 _ = V m c main_v9 _
  refine congrArg _ ?_
  funext a
  apply Fin.ext
  match a with
  | ⟨0, _⟩ =>
    show win0_7.index t 0 * 1 + 1 * 0 = 0
    rw [(idx7 t).1]
  | ⟨1, _⟩ =>
    show win0_7.index t 1 * 512 + 1 * q.val = (t.val % 16) * 512 + q.val
    rw [(idx7 t).2]; omega

end Read

end Cert.KernelIdeal.Blocks

end
-- ==== Proof.Val.Prefix.lean ====
/-
  What the eleven host operations before the kernel region leave, read at an index.

  From the matrix `X` and the labels the host prepares: the matrix in the narrow format (its high part),
  the matrix minus its high part widened again, in the narrow format (its low part), the squared norm of
  every row, as a column and as a row, and the labels as a column and as a row.  On the extended reals
  a change of format is the identity, so the high part is `X` and the low part is `X - X` entry by entry;
  the squared norm of a row is the sum over its 768 entries of the squares, the sum's start value being
  the literal zero, which is the number zero; the reshapes keep the row-major position.
-/
import proofs.«114137_j7370163880494_2_alg».proof.Proof.KI.Base
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Prefix

open Cert.KernelIdeal Cert.KernelIdeal.Gen Cert.KernelIdeal.Hand Idealize.ShloMosaic Idealize.ShloMosaic.ValueIdx
  Idealize.ShloMosaic.TcCoe Idealize.SL.Sem Idealize.ShloMosaic.StableHlo

/-! ## Two casts between a column, a row and a vector, at an index given by coordinates -/

section Layout
variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]` reads, at `(u, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

end Layout

/-! ## The host's sum along the rows, and the vector of sums kept as a column -/

/-- The host's sum of a matrix along its rows from the literal zero holds, at `r`, the sum of row `r`. -/
theorem rowSum_at (Y : FVec Ideal S8192x768 .f32) (r : Fin 8192) :
    Host.reduceAdd (F := Ideal) Y (constant (F := Ideal) S_ .f32 0x00000000#32) reducesTo_S8192x768_S8192_d1 h_S_ (ix1 r)
      = ∑ k : Fin 768, Y (ix2 r k) := by
  unfold Host.reduceAdd
  rw [Ideal.hostReduceAdd_def, Ideal.hostReduceAdd_single reducesTo_S8192x768_S8192_d1 (by decide),
    constant_apply, Ideal.ofBits_zero_f32, zero_add]
  refine Finset.sum_congr rfl fun k _ => congrArg Y ?_
  exact funext fun a => Fin.ext (by match a with | ⟨0, _⟩ => rfl | ⟨1, _⟩ => rfl)

/-- A vector `[8192]` kept as a column reads, at `(r, u)`, the vector at `r`. -/
theorem keepCol_at {α : Type} (y : S8192.Idx → α) (r : Fin 8192) (u : Fin 1) :
    broadcastInDim S8192x1 ![0] bcast_S8192_S8192x1_0 y (ix2 r u) = y (ix1 r) :=
  broadcastInDim_apply _ bcast_S8192_S8192x1_0 y (ix2 r u) (ix1 r) (fun a => match a with
    | ⟨0, _⟩ => by show r.val = if (8192 : ℕ) = 1 then 0 else r.val; rw [if_neg (by decide)])

section Entry

variable (m : (ℓ : Loc nD τ sig) → Buf (Elt Ideal) ℓ) (c : Dev nD)

/-- The matrix argument as the launch memory of core `c` holds it. -/
abbrev X : FVec Ideal S8192x768 .f32 := m ((c : Thread nD τ).loc main_arg0)
/-- The label argument as the launch memory of core `c` holds it. -/
abbrev Lb : IVec S8192 32 := m ((c : Thread nD τ).loc main_arg1)

/-! ## Each prepared array as a term over the arguments -/

theorem v0_eq : (V m c main_v0 : S8192x768.Idx → EReal) = truncf .bf16 (X m c) bitsLt_bf16_f32 := by
  show StableHlo.after hostOps0 (fun b => m (c, b)) (Proc.devRef .tc main_v0) = _
  after_results

theorem v3_eq : (V m c main_v3 : S8192x768.Idx → EReal)
    = truncf .bf16 (subf (X m c) (extf .f32 (truncf .bf16 (X m c) bitsLt_bf16_f32) bitsLt_bf16_f32)) bitsLt_bf16_f32 := by
  show StableHlo.after hostOps0 (fun b => m (c, b)) (Proc.devRef .tc main_v3) = _
  after_results

/-- The vector of squared row norms, as the host computes it. -/
abbrev normVec : FVec Ideal S8192 .f32 :=
  Host.reduceAdd (F := Ideal) (mulf (X m c) (X m c)) (constant (F := Ideal) S_ .f32 0x00000000#32) reducesTo_S8192x768_S8192_d1 h_S_

theorem v6_eq : (V m c main_v6 : S8192x1.Idx → EReal) = broadcastInDim S8192x1 ![0] bcast_S8192_S8192x1_0 (normVec m c) := by
  show StableHlo.after hostOps0 (fun b => m (c, b)) (Proc.devRef .tc main_v6) = _
  after_results

theorem v7_eq : (V m c main_v7 : S1x8192.Idx → EReal)
    = shapeCast S1x8192 (broadcastInDim S8192x1 ![0] bcast_S8192_S8192x1_0 (normVec m c)) shapeCasts_S8192x1_S1x8192 := by
  show StableHlo.after hostOps0 (fun b => m (c, b)) (Proc.devRef .tc main_v7) = _
  after_results
  rfl

theorem v8_eq : (V m c main_v8 : S8192x1.Idx → BitVec 32) = shapeCast S8192x1 (Lb m c) shapeCasts_S8192_S8192x1 := by
  show StableHlo.after hostOps0 (fun b => m (c, b)) (Proc.devRef .tc main_v8) = _
  after_results
  rfl

theorem v9_eq : (V m c main_v9 : S1x8192.Idx → BitVec 32) = shapeCast S1x8192 (Lb m c) shapeCasts_S8192_S1x8192 := by
  show StableHlo.after hostOps0 (fun b => m (c, b)) (Proc.devRef .tc main_v9) = _
  after_results
  rfl

/-! ## The prepared arrays at an index -/

/-- The high part is the entry itself: a change of format is the identity on the extended reals. -/
theorem hi_at (r : Fin 8192) (k : Fin 768) :
    (V m c main_v0 : S8192x768.Idx → EReal) (ix2 r k) = X m c (ix2 r k) := by
  rw [v0_eq]
  rfl

/-- The low part is the entry minus itself. -/
theorem lo_at (r : Fin 8192) (k : Fin 768) :
    (V m c main_v3 : S8192x768.Idx → EReal) (ix2 r k) = X m c (ix2 r k) - X m c (ix2 r k) := by
  rw [v3_eq]
  rfl

/-- The squared norm of row `r` at `r` of the vector of norms. -/
theorem normVec_at (r : Fin 8192) : normVec m c (ix1 r) = ∑ k : Fin 768, X m c (ix2 r k) * X m c (ix2 r k) :=
  rowSum_at (mulf (X m c) (X m c)) r

/-- The column of squared row norms. -/
theorem nrow_at (r : Fin 8192) :
    (V m c main_v6 : S8192x1.Idx → EReal) (ix2 r (0 : Fin 1)) = ∑ k : Fin 768, X m c (ix2 r k) * X m c (ix2 r k) := by
  rw [v6_eq, keepCol_at, normVec_at]

/-- The row of squared row norms. -/
theorem ncol_at (c' : Fin 8192) :
    (V m c main_v7 : S1x8192.Idx → EReal) (ix2 (0 : Fin 1) c') = ∑ k : Fin 768, X m c (ix2 c' k) * X m c (ix2 c' k) := by
  rw [v7_eq, shapeCast_a1_1a_apply, keepCol_at, normVec_at]

/-- The column of labels. -/
theorem lrow_at (r : Fin 8192) : (V m c main_v8 : S8192x1.Idx → BitVec 32) (ix2 r (0 : Fin 1)) = Lb m c (ix1 r) := by
  rw [v8_eq, shapeCast_a_a1_apply]

/-- The row of labels. -/
theorem lcol_at (c' : Fin 8192) : (V m c main_v9 : S1x8192.Idx → BitVec 32) (ix2 (0 : Fin 1) c') = Lb m c (ix1 c') := by
  rw [v9_eq, shapeCast_a_1a_apply]

end Entry

end Cert.KernelIdeal.Prefix

end
-- ==== Proof.Spec.lean ====
/-
  The quantity both programs compute, written once over plain index types.

  For a matrix `x` of 8192 rows and 768 columns and a label per row:
  the squared norm of a row, the Gram entry of two rows, the squared distance
  `‖x_r‖² + ‖x_c‖² − 2 ⟨x_r, x_c⟩`, the similarity `exp (−dist / 2)`,
  the mask that is one exactly where two rows carry the same label, and per row the
  masked and the unmasked sums of similarities over all rows.  The loss of a row is
  `−log (pos / (all + ε))` and the result is the mean of the row losses.

  Everything is an extended real, the operations are the exact ones, and the three float
  literals (2, ε, 8192) are kept as the binary words the programs print.
-/
import Idealize.ShloMosaic.PureOps.Ideal

noncomputable section

namespace Cert.Fuzzy

open Idealize.ShloMosaic

/-- The literal `2.0`. -/
def two : EReal := Ideal.ofBits .f32 0x40000000#32
/-- The literal `1e-8` as rounded to binary32. -/
def eps : EReal := Ideal.ofBits .f32 0x322BCC77#32
/-- The literal `8192.0`. -/
def cnt : EReal := Ideal.ofBits .f32 0x46000000#32

/-- The squared norm of row `r`. -/
def nrm (x : Fin 8192 → Fin 768 → EReal) (r : Fin 8192) : EReal := ∑ k : Fin 768, x r k * x r k

/-- The inner product of rows `r` and `c`. -/
def gram (x : Fin 8192 → Fin 768 → EReal) (r c : Fin 8192) : EReal := ∑ k : Fin 768, x r k * x c k

/-- The squared distance of rows `r` and `c`, by the polarisation formula. -/
def dist (x : Fin 8192 → Fin 768 → EReal) (r c : Fin 8192) : EReal := (nrm x r + nrm x c) - two * gram x r c

/-- The similarity `exp (−dist / 2)`. -/
def sim (x : Fin 8192 → Fin 768 → EReal) (r c : Fin 8192) : EReal := Ideal.exp (Ideal.div (-(dist x r c)) two)

/-- One where rows `r` and `c` carry the same label, zero elsewhere. -/
def same (lab : Fin 8192 → BitVec 32) (r c : Fin 8192) : EReal := if lab r = lab c then 1 else 0

/-- The similarities of row `r` to the rows of its own label, summed. -/
def pos (x : Fin 8192 → Fin 768 → EReal) (lab : Fin 8192 → BitVec 32) (r : Fin 8192) : EReal :=
  ∑ c : Fin 8192, sim x r c * same lab r c

/-- The similarities of row `r` to all rows, summed. -/
def tot (x : Fin 8192 → Fin 768 → EReal) (r : Fin 8192) : EReal := ∑ c : Fin 8192, sim x r c

/-- A row's loss from its two sums. -/
def rowLoss (p a : EReal) : EReal := -(Ideal.log (Ideal.div p (a + eps)))

/-- The mean of the row losses. -/
def loss (x : Fin 8192 → Fin 768 → EReal) (lab : Fin 8192 → BitVec 32) : EReal :=
  Ideal.div (∑ r : Fin 8192, rowLoss (pos x lab r) (tot x r)) cnt

end Cert.Fuzzy

end
-- ==== Proof.Val.Algebra.lean ====
/-
  The pointwise laws that join the kernel's arithmetic to the specification's.

  The kernel reads each entry of the matrix as a high part and a low part.  On the extended reals a
  change of format is the identity, so the high part is the entry itself and the low part is the entry
  minus itself.  That difference is zero exactly when the entry is a real number (infinity minus
  infinity is not zero), and this is the one place where the inputs' finiteness is used.  With the low
  parts zero, the kernel's three partial Gram sums collapse to the Gram entry.  The kernel multiplies the
  squared distance by the literal -1/2 where the specification divides its negative by the literal 2:
  the same number.  Last, the kernel walks the 8192 columns in 16 blocks of 512, adding one block's sum
  at a time; the sum over the blocks of the sums within a block is the sum over all columns.
-/
import proofs.«114137_j7370163880494_2_alg».proof.Proof.Spec
import Idealize.ShloMosaic.PureOps.Ideal.Laws

noncomputable section

open scoped BigOperators

namespace Cert.Fuzzy

open Idealize.ShloMosaic

/-! ## The two literals as real numbers -/

/-- The word of `2.0` denotes the real number two. -/
theorem two_eq : two = ((2 : ℝ) : EReal) := by
  unfold two
  simp [Ideal.ofBits, Ideal.ieee, -EReal.coe_mul]
  norm_num

/-- The word of `-0.5` denotes the real number minus one half. -/
theorem negHalf_eq : Ideal.ofBits .f32 0xBF000000#32 = ((-(1 / 2) : ℝ) : EReal) := by
  simp [Ideal.ofBits, Ideal.ieee, -EReal.coe_mul]
  norm_num

/-! ## A real number minus itself -/

/-- A real number minus itself is zero … -/
theorem lo_zero_coe (y : ℝ) : (y : EReal) - (y : EReal) = 0 := by
  rw [← EReal.coe_sub, sub_self, EReal.coe_zero]

/-- … so an extended real that is neither infinity, minus itself, is zero. -/
theorem lo_zero (a : EReal) (h : a ≠ ⊤ ∧ a ≠ ⊥) : a - a = 0 := by
  lift a to ℝ using h
  exact lo_zero_coe a

/-! ## The three partial Gram sums -/

/-- With every entry a real number the two sums that carry a low part vanish term by term, and
    the remaining sum is the Gram entry. -/
theorem gram3 (x : Fin 8192 → Fin 768 → EReal) (hx : ∀ r k, x r k ≠ ⊤ ∧ x r k ≠ ⊥) (r c : Fin 8192) :
    ((∑ k : Fin 768, x r k * x c k) + (∑ k : Fin 768, x r k * (x c k - x c k)))
      + (∑ k : Fin 768, (x r k - x r k) * x c k) = gram x r c := by
  have h2 : ∑ k : Fin 768, x r k * (x c k - x c k) = 0 :=
    Finset.sum_eq_zero fun k _ => by rw [lo_zero _ (hx c k), mul_zero]
  have h3 : ∑ k : Fin 768, (x r k - x r k) * x c k = 0 :=
    Finset.sum_eq_zero fun k _ => by rw [lo_zero _ (hx r k), zero_mul]
  rw [h2, h3, add_zero, add_zero]
  rfl

/-! ## Times minus one half is: the negative, over two -/

/-- For every extended real: multiplying by the literal `-0.5` is dividing the negative by the
    literal `2.0`.  Division by the nonzero real two is multiplication by one half, and a sign moves
    freely between the factors of a product. -/
theorem half (d : EReal) : d * Ideal.ofBits .f32 0xBF000000#32 = Ideal.div (-d) two := by
  rw [negHalf_eq, two_eq, Ideal.div_coe (by norm_num : (2 : ℝ) ≠ 0), EReal.coe_neg, mul_neg, neg_mul]

/-! ## Finite sums and products of real numbers are real -/

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- A matrix of extended reals none of which is an infinity is a matrix of real numbers. -/
theorem exists_real (x : Fin 8192 → Fin 768 → EReal) (hx : ∀ r k, x r k ≠ ⊤ ∧ x r k ≠ ⊥) :
    ∃ y : Fin 8192 → Fin 768 → ℝ, x = fun r k => (y r k : EReal) :=
  ⟨fun r k => (x r k).toReal,
    funext fun r => funext fun k => (EReal.coe_toReal (hx r k).1 (hx r k).2).symm⟩

/-- The squared norm of a row of real numbers is the real sum of squares. -/
theorem nrm_coe (y : Fin 8192 → Fin 768 → ℝ) (r : Fin 8192) :
    nrm (fun r k => (y r k : EReal)) r = ((∑ k : Fin 768, y r k * y r k : ℝ) : EReal) := by
  unfold nrm
  rw [coe_sum]
  exact Finset.sum_congr rfl fun k _ => (EReal.coe_mul _ _).symm

/-- The Gram entry of two rows of real numbers is the real inner product. -/
theorem gram_coe (y : Fin 8192 → Fin 768 → ℝ) (r c : Fin 8192) :
    gram (fun r k => (y r k : EReal)) r c = ((∑ k : Fin 768, y r k * y c k : ℝ) : EReal) := by
  unfold gram
  rw [coe_sum]
  exact Finset.sum_congr rfl fun k _ => (EReal.coe_mul _ _).symm

/-- The squared distance of two rows of real numbers is a real number, by the same formula. -/
theorem dist_coe (y : Fin 8192 → Fin 768 → ℝ) (r c : Fin 8192) :
    dist (fun r k => (y r k : EReal)) r c
      = ((((∑ k : Fin 768, y r k * y r k) + (∑ k : Fin 768, y c k * y c k))
          - 2 * (∑ k : Fin 768, y r k * y c k) : ℝ) : EReal) := by
  unfold dist
  rw [nrm_coe, nrm_coe, gram_coe, two_eq, ← EReal.coe_add, ← EReal.coe_mul, ← EReal.coe_sub]

/-- So with every entry a real number the squared distance is neither infinity. -/
theorem dist_real (x : Fin 8192 → Fin 768 → EReal) (hx : ∀ r k, x r k ≠ ⊤ ∧ x r k ≠ ⊥) (r c : Fin 8192) :
    dist x r c ≠ ⊤ ∧ dist x r c ≠ ⊥ := by
  obtain ⟨y, rfl⟩ := exists_real x hx
  rw [dist_coe]
  exact ⟨EReal.coe_ne_top _, EReal.coe_ne_bot _⟩

/-! ## The kernel's similarity is the specification's -/

/-- The kernel's entry: the exponential of the squared distance (its Gram entry in three parts)
    times the literal `-0.5`.  The three parts are the Gram entry (`gram3`) and the product is the
    specification's quotient (`half`). -/
theorem kernel_sim (x : Fin 8192 → Fin 768 → EReal) (hx : ∀ r k, x r k ≠ ⊤ ∧ x r k ≠ ⊥) (r c : Fin 8192) :
    Ideal.exp (((nrm x r + nrm x c) - two * (((∑ k : Fin 768, x r k * x c k)
        + (∑ k : Fin 768, x r k * (x c k - x c k))) + (∑ k : Fin 768, (x r k - x r k) * x c k)))
      * Ideal.ofBits .f32 0xBF000000#32) = sim x r c := by
  rw [gram3 x hx r c, half]
  rfl

/-! ## Sixteen blocks of 512 columns -/

/-- Column `q` of block `b` is column `512 b + q`. -/
abbrev blockCol (b : Fin 16) (q : Fin 512) : Fin 8192 := ⟨b.val * 512 + q.val, by omega⟩

/-- The sum over the blocks of the sums within a block is the sum over all columns: the columns
    are the pairs (block, column within the block), and a sum over pairs is the iterated sum. -/
theorem blocked_sum (f : Fin 8192 → EReal) : ∑ b : Fin 16, ∑ q : Fin 512, f (blockCol b q) = ∑ c : Fin 8192, f c := by
  rw [← Equiv.sum_comp (finProdFinEquiv (m := 16) (n := 512)) f, Fintype.sum_prod_type]
  refine Finset.sum_congr rfl fun b _ => Finset.sum_congr rfl fun q _ => congrArg f (Fin.ext ?_)
  show b.val * 512 + q.val = q.val + 512 * b.val
  omega

/-- The running sum of a sequence, started from zero: the first term is added to zero, each
    later term to what came before. -/
def acc (S : ℕ → EReal) : ℕ → EReal
  | 0 => 0 + S 0
  | n + 1 => acc S n + S (n + 1)

/-- The running sum after term `n` is the sum of the terms up to `n`. -/
theorem acc_eq (S : ℕ → EReal) (n : ℕ) : acc S n = ∑ b ∈ Finset.range (n + 1), S b := by
  induction n with
  | zero => rw [acc, zero_add, Finset.sum_range_one]
  | succ n ih => rw [acc, ih, Finset.sum_range_succ _ (n + 1)]

/-- The sum of block `b` (zero from the sixteenth block on, where there is none). -/
def blockSum (f : Fin 8192 → EReal) (b : ℕ) : EReal :=
  if h : b < 16 then ∑ q : Fin 512, f (blockCol ⟨b, h⟩ q) else 0

/-- Adding the sixteen block sums one after the other from zero gives the sum over all columns. -/
theorem acc_blocks (f : Fin 8192 → EReal) : acc (blockSum f) 15 = ∑ c : Fin 8192, f c := by
  rw [acc_eq, ← blocked_sum, ← Fin.sum_univ_eq_sum_range (blockSum f) 16]
  refine Finset.sum_congr rfl fun b _ => ?_
  rw [blockSum, dif_pos b.isLt]

end Cert.Fuzzy

end
-- ==== Proof.KV.Step.lean ====
/-
  One grid point's update of the two accumulators, read at a row, at the exact instance.

  Point `t` works on rows `rowOf t p` (its row-block) against columns `colOf t q` (its column-block).  The tile
  entry the body forms at (p, q) is the similarity of those two rows of the matrix: the three products of the
  high and low parts collapse to the one Gram entry because the low part of a real number is zero, and the factor
  −1/2 is the specification's division of the negated distance by two.  The masked accumulator gains the tile's row
  sum over the columns whose label equals the row's; the plain accumulator gains the whole row sum.
-/
import proofs.«114137_j7370163880494_2_alg».proof.Proof.KV.Pieces
import proofs.«114137_j7370163880494_2_alg».proof.Proof.Val.PayValue
import proofs.«114137_j7370163880494_2_alg».proof.Proof.Val.Blocks
import proofs.«114137_j7370163880494_2_alg».proof.Proof.Val.Prefix
import proofs.«114137_j7370163880494_2_alg».proof.Proof.Val.Algebra

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Fuzzy

variable (m : (ℓ : Loc nD τ sig) → Buf (Elt Ideal) ℓ) (c : Dev nD)

open Cert.KernelIdeal.PayValue Cert.KernelIdeal.Blocks Cert.KernelIdeal.Prefix

/-- The input matrix on core `c`, by row and column. -/
abbrev xs (r : Fin 8192) (k : Fin 768) : EReal := X m c (ix2 r k)
/-- The labels on core `c`, by row. -/
abbrev lab (r : Fin 8192) : BitVec 32 := Lb m c (ix1 r)

/-- The masked summand of row `r` at column `c'`. -/
def fpos (r c' : Fin 8192) : EReal := sim (xs m c) r c' * same (lab m c) r c'

/-- The tile entry at (p, q) of point `t` is the similarity of row `rowOf t p` and row `colOf t q`. -/
theorem tile_eq (hx : ∀ r k, xs m c r k ≠ ⊤ ∧ xs m c r k ≠ ⊥) (t : Fin cfg0.N) (p : Fin 1024) (q : Fin 512) :
    k0_pay5 (F := Ideal) (iblk m c 0 t) (iblk m c 1 t) (iblk m c 2 t) (iblk m c 3 t) (iblk m c 4 t) (iblk m c 5 t) (ix2 p q)
      = sim (xs m c) (rowOf t p) (colOf t q) := by
  refine (tile_at (iblk m c 0 t) (iblk m c 2 t) (iblk m c 1 t) (iblk m c 3 t) (iblk m c 4 t) (iblk m c 5 t) p q).trans ?_
  rw [blk4 m c t p, blk5 m c t q, nrow_at, ncol_at]
  simp only [blk0 m c t, blk1 m c t, blk2 m c t, blk3 m c t, hi_at, lo_at]
  exact kernel_sim (xs m c) hx (rowOf t p) (colOf t q)

/-- The masked accumulator's update at row p of point `t`. -/
theorem pos_step (hx : ∀ r k, xs m c r k ≠ ⊤ ∧ xs m c r k ≠ ⊥) (t : Fin cfg0.N) (prev : Vec Ideal S1024x1 .f32) (p : Fin 1024) :
    step8 (F := Ideal) (iblk m c 0 t) (iblk m c 1 t) (iblk m c 2 t) (iblk m c 3 t) (iblk m c 4 t) (iblk m c 5 t) (iblk m c 6 t) (iblk m c 7 t) prev (ix2 p (0 : Fin 1))
      = prev (ix2 p (0 : Fin 1)) + ∑ q : Fin 512, fpos m c (rowOf t p) (colOf t q) := by
  unfold step8
  refine (posStep_at _ _ _ _ p).trans ?_
  refine congrArg (_ + ·) (Finset.sum_congr rfl fun q _ => ?_)
  rw [tile_eq m c hx t p q, labRow_at, labCol_at, blk6 m c t p, blk7 m c t q, lrow_at, lcol_at]
  rfl

/-- The plain accumulator's update at row p of point `t`. -/
theorem tot_step (hx : ∀ r k, xs m c r k ≠ ⊤ ∧ xs m c r k ≠ ⊥) (t : Fin cfg0.N) (prev : Vec Ideal S1024x1 .f32) (p : Fin 1024) :
    step9 (F := Ideal) (iblk m c 0 t) (iblk m c 1 t) (iblk m c 2 t) (iblk m c 3 t) (iblk m c 4 t) (iblk m c 5 t) (iblk m c 6 t) (iblk m c 7 t) prev (ix2 p (0 : Fin 1))
      = prev (ix2 p (0 : Fin 1)) + ∑ q : Fin 512, sim (xs m c) (rowOf t p) (colOf t q) := by
  unfold step9
  refine (totStep_at _ _ p).trans ?_
  refine congrArg (_ + ·) (Finset.sum_congr rfl fun q _ => ?_)
  exact tile_eq m c hx t p q

end Cert.KernelIdeal.KVal

end
-- ==== Proof.KV.Fold.lean ====
/-
  The accumulators after each grid point are running sums over the column-blocks done so far.

  By induction on the point's position `n`: at column-block 0 (n ≡ 0 mod 16) the accumulators are reset and hold
  the first block's row sums; at a later column-block they hold what position `n − 1` left — the same row-block,
  one column-block earlier — plus this block's row sums.  So after column-block `n % 16` the row `p` entries are
  the left-to-right sums of the first `n % 16 + 1` blocks of 512 of the row's summands.
-/
import proofs.«114137_j7370163880494_2_alg».proof.Proof.KV.Step

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Fuzzy

variable (m : (ℓ : Loc nD τ sig) → Buf (Elt Ideal) ℓ) (c : Dev nD)

open Cert.KernelIdeal.PayValue Cert.KernelIdeal.Blocks Cert.KernelIdeal.Prefix

/-- The columns of point `t`'s column-block are the specification's block `t % 16`. -/
theorem colOf_eq (t : Fin cfg0.N) (q : Fin 512) : colOf t q = blockCol ⟨t.val % 16, Nat.mod_lt _ (by norm_num)⟩ q := rfl

/-- A block's sum, for a block number given as a remainder mod 16. -/
theorem blockSum_mod (f : Fin 8192 → EReal) (n : ℕ) :
    blockSum f (n % 16) = ∑ q : Fin 512, f (blockCol ⟨n % 16, Nat.mod_lt _ (by norm_num)⟩ q) :=
  dif_pos (Nat.mod_lt _ (by norm_num))

/-- The first block's row sums, as the running sum's first term. -/
theorem first_pos (hx : ∀ r k, xs m c r k ≠ ⊤ ∧ xs m c r k ≠ ⊥) (t : Fin cfg0.N) (h0 : t.val % 16 = 0) (p : Fin 1024) :
    step8 (F := Ideal) (iblk m c 0 t) (iblk m c 1 t) (iblk m c 2 t) (iblk m c 3 t) (iblk m c 4 t) (iblk m c 5 t) (iblk m c 6 t) (iblk m c 7 t) (k0_pay3 (F := Ideal)) (ix2 p (0 : Fin 1))
      = acc (blockSum (fpos m c (rowOf t p))) (t.val % 16) := by
  rw [pos_step m c hx t _ p, zero_at, h0]
  show (0 : EReal) + _ = 0 + blockSum _ 0
  rw [show (0 : ℕ) = t.val % 16 from h0.symm, blockSum_mod]
  rfl

theorem first_tot (hx : ∀ r k, xs m c r k ≠ ⊤ ∧ xs m c r k ≠ ⊥) (t : Fin cfg0.N) (h0 : t.val % 16 = 0) (p : Fin 1024) :
    step9 (F := Ideal) (iblk m c 0 t) (iblk m c 1 t) (iblk m c 2 t) (iblk m c 3 t) (iblk m c 4 t) (iblk m c 5 t) (iblk m c 6 t) (iblk m c 7 t) (k0_pay4 (F := Ideal)) (ix2 p (0 : Fin 1))
      = acc (blockSum (sim (xs m c) (rowOf t p))) (t.val % 16) := by
  rw [tot_step m c hx t _ p, zero_at', h0]
  show (0 : EReal) + _ = 0 + blockSum _ 0
  rw [show (0 : ℕ) = t.val % 16 from h0.symm, blockSum_mod]
  rfl

/-- THE FOLD.  After position `n` the accumulators' row `p` entries are the running sums of the row's summands over
    column-blocks 0 … n % 16. -/
theorem fold (hx : ∀ r k, xs m c r k ≠ ⊤ ∧ xs m c r k ≠ ⊥) : ∀ (n : ℕ) (h : n < cfg0.N) (p : Fin 1024),
    (outsAt0 m c n h).1 (ix2 p (0 : Fin 1)) = acc (blockSum (fpos m c (rowOf ⟨n, h⟩ p))) (n % 16)
    ∧ (outsAt0 m c n h).2 (ix2 p (0 : Fin 1)) = acc (blockSum (sim (xs m c) (rowOf ⟨n, h⟩ p))) (n % 16)
  | 0, h, p => by
    rw [show outsAt0 m c 0 h = _ from outs_A m c ⟨0, h⟩ rfl]
    exact ⟨first_pos m c hx ⟨0, h⟩ rfl p, first_tot m c hx ⟨0, h⟩ rfl p⟩
  | n + 1, h, p => by
    have hN : n + 1 < 128 := lt_of_lt_of_eq h (show cfg0.N = 128 from N_0)
    by_cases h0 : (n + 1) % 16 = 0
    · rw [show outsAt0 m c (n + 1) h = _ from outs_A m c ⟨n + 1, h⟩ h0]
      exact ⟨first_pos m c hx ⟨n + 1, h⟩ h0 p, first_tot m c hx ⟨n + 1, h⟩ h0 p⟩
    · obtain ⟨ih1, ih2⟩ := fold hx n (Nat.lt_of_succ_lt h) p
      have hr : rowOf ⟨n, Nat.lt_of_succ_lt h⟩ p = rowOf ⟨n + 1, h⟩ p :=
        Fin.ext (by show n / 16 * 1024 + p.val = (n + 1) / 16 * 1024 + p.val; omega)
      have hk : (n + 1) % 16 = n % 16 + 1 := by omega
      rw [outs_B m c n h h0]
      constructor
      · show step8 (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).1 (ix2 p (0 : Fin 1)) = _
        rw [pos_step m c hx ⟨n + 1, h⟩ _ p, ih1, hr]
        have hs : ∑ q : Fin 512, fpos m c (rowOf ⟨n + 1, h⟩ p) (colOf ⟨n + 1, h⟩ q)
            = blockSum (fpos m c (rowOf ⟨n + 1, h⟩ p)) (n % 16 + 1) := by
          rw [← hk, blockSum_mod]; rfl
        rw [hs, hk]
        rfl
      · show step9 (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2 (ix2 p (0 : Fin 1)) = _
        rw [tot_step m c hx ⟨n + 1, h⟩ _ p, ih2, hr]
        have hs : ∑ q : Fin 512, sim (xs m c) (rowOf ⟨n + 1, h⟩ p) (colOf ⟨n + 1, h⟩ q)
            = blockSum (sim (xs m c) (rowOf ⟨n + 1, h⟩ p)) (n % 16 + 1) := by
          rw [← hk, blockSum_mod]; rfl
        rw [hs, hk]
        rfl

end Cert.KernelIdeal.KVal

end
-- ==== Proof.KV.Tail.lean ====
/-
  The result buffer at the end: the ten host operations after the region, as one function of the two accumulator
  arrays.

  They add the literal ε to the plain sums, divide the masked sums by that, take the logarithm, negate, sum over all
  8192 rows and divide by 8192.  Folded over the region's exit contents they read the two arrays the write-backs
  left and nothing else of the pipeline.
-/
import proofs.«114137_j7370163880494_2_alg».proof.Proof.KI.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The mean row loss from the column of masked sums `P` and the column of plain sums `A`. -/
def tail (P A : FVec F S8192x1 .f32) : FVec F S_ .f32 :=
  Host.divf (Host.reduceAdd (Host.negf (Host.log (Host.divf P (addf A (broadcastInDim S8192x1 ![] bcast_S_S8192x1 (constant S_ .f32 0x322BCC77#32))))))
    (constant S_ .f32 0x00000000#32) reducesTo_S8192x1_S_d0_1 h_S_) (constant S_ .f32 0x46000000#32)

/-- The result buffer ends at `tail` of the two accumulator arrays as the write-backs left them. -/
theorem result_eq (c : Dev nD) :
    afterT m c main_v17 = tail (F := F) ((dats m 0 c).arrAt 8 cfg0.N) ((dats m 0 c).arrAt 9 cfg0.N) := by
  unfold afterT
  show StableHlo.after hostOps1 (Wexit m c) (Proc.devRef .tc main_v17) = _
  after_results
  have e8 : Wexit m c (Proc.devRef .tc main_v10_0) = (dats m 0 c).arrAt 8 cfg0.N :=
    Pipeline.withArrays_arr spec89 spec89_inj c (V0 m c) (A89 m c) 0
  have e9 : Wexit m c (Proc.devRef .tc main_v10_1) = (dats m 0 c).arrAt 9 cfg0.N :=
    Pipeline.withArrays_arr spec89 spec89_inj c (V0 m c) (A89 m c) 1
  rw [e8, e9]
  rfl

/-- The run, read at the result buffer and the arguments. -/
theorem run_result : θ_run defs (onTc (τ := τ) (main (F := F))) ⟨m, fun _ => 0, ρ⟩ (fun r => ∀ c : Dev nD,
      r.2.mem ((c.tc : Thread nD τ).loc main_v17) = tail (F := F) ((dats m 0 c).arrAt 8 cfg0.N) ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v17 (Pipeline.mem_restRefs_of main_v17 (by decide) (by decide))).trans (result_eq m c),
     ((h c).2 main_arg0 (Pipeline.mem_restRefs_of main_arg0 (by decide) (by decide))).trans (T_main_arg0 m c),
     ((h c).2 main_arg1 (Pipeline.mem_restRefs_of main_arg1 (by decide) (by decide))).trans (T_main_arg1 m c)⟩) (run_main m ρ)

end Cert.KernelIdeal.Hand

end
-- ==== Proof.Val.Cover.lean ====
/-
  The two accumulator windows cover their arrays.

  Windows 8 and 9 hold the masked and the plain running column of a row block: 1024 rows by one
  column of an 8192 by 1 array.  A window's block at point `t` is the rows from `1024 (t / 16)`,
  and the block is written back to the array exactly at the last point of a row block, the points
  `t` with `t % 16 = 15`.  Every row `i` of the array lies in the block of the last point of its row
  block `i / 1024`, which is point `16 (i / 1024) + 15`: so the blocks written back cover the array.
-/
import proofs.«114137_j7370163880494_2_alg».proof.Proof.KI.Body
import proofs.«114137_j7370163880494_2_alg».proof.Proof.Val.Blocks
import Idealize.ShloMosaic.Lib.Pipeline.Value
import Idealize.ShloMosaic.Lib.ValueIdx

set_option maxRecDepth 16384

noncomputable section

namespace Cert.KernelIdeal.Cover

open Cert.KernelIdeal Cert.KernelIdeal.Gen Cert.KernelIdeal.Hand Cert.KernelIdeal.Blocks Idealize.ShloMosaic
  Idealize.ShloMosaic.ValueIdx Idealize.ShloMosaic.TcCoe Idealize.SL.Sem

/-! ## The two windows' block indices at every point -/

/-- Windows 8 and 9 follow the row block. -/
theorem idx8 : ∀ t : Fin cfg0.N, win0_8.index t (0 : Fin 2) = t.val / 16 ∧ win0_8.index t (1 : Fin 2) = 0 :=
  (by decide +kernel : ∀ t : Fin grid0.N, _)
theorem idx9 : ∀ t : Fin cfg0.N, win0_9.index t (0 : Fin 2) = t.val / 16 ∧ win0_9.index t (1 : Fin 2) = 0 :=
  (by decide +kernel : ∀ t : Fin grid0.N, _)

/-! ## Which indices of the array a point's block holds -/

/-- An index of the array is in point `t`'s block iff each coordinate is in the block's range on its axis. -/
theorem mem_blk8 (t : Fin cfg0.N) (i : S8192x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_v10_0).slice (win0_8.rect t)).set ↔ _
  rw [View.set_slice_whole, Rect.mem_set_unit]
  exact Iff.rfl

theorem mem_blk9 (t : Fin cfg0.N) (i : S8192x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v10_1).slice (win0_9.rect t)).set ↔ _
  rw [View.set_slice_whole, Rect.mem_set_unit]
  exact Iff.rfl

/-! ## The cover -/

/-- The last point of the row block that holds row `n`. -/
theorem exists_last (n : ℕ) (hn : n < 8192) : ∃ t : Fin cfg0.N, t.val = n / 1024 * 16 + 15 :=
  ⟨⟨n / 1024 * 16 + 15, lt_of_lt_of_eq (by omega) N_0.symm⟩, rfl⟩

/-- Every index of window 8's array is in the block of a point that writes the block back. -/
theorem cover8 (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  obtain ⟨t, ht⟩ := exists_last (i 0).val hi0
  obtain ⟨e0, e1⟩ := idx8 t
  refine ⟨t, (flush0_8 t).mpr (by omega), ?_⟩
  rw [mem_blk8]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1 ≤ (i 1).val ∧ (i 1).val < win0_8.index t (1 : Fin 2) * 1 + 1
    omega

/-- Every index of window 9's array is in the block of a point that writes the block back. -/
theorem cover9 (i : S8192x1.Idx) : ∃ t : Fin cfg0.N, (cfg0.win 9).flush t = true ∧ i ∈ ((cfg0.win 9).blk t).view.set := by
  have hi0 : (i 0).val < 8192 := (i 0).isLt
  have hi1 : (i 1).val < 1 := (i 1).isLt
  obtain ⟨t, ht⟩ := exists_last (i 0).val hi0
  obtain ⟨e0, e1⟩ := idx9 t
  refine ⟨t, (flush0_9 t).mpr (by omega), ?_⟩
  rw [mem_blk9]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 1 ≤ (i 1).val ∧ (i 1).val < win0_9.index t (1 : Fin 2) * 1 + 1
    omega

/-! ## Where a block's element sits in the array -/

/-- Row `p` of window 8's block at point `t` is row `1024 (t / 16) + p` of the array. -/
theorem emb8 (t : Fin cfg0.N) (p : Fin 1024) :
    ((((cfg0.win 8).blk t).view.emb (ix2 p (0 : Fin 1) : S1024x1.Idx)) 0).val = (t.val / 16) * 1024 + p.val := by
  show win0_8.index t (0 : Fin 2) * 1024 + 1 * p.val = _
  rw [(idx8 t).1]; omega

theorem emb9 (t : Fin cfg0.N) (p : Fin 1024) :
    ((((cfg0.win 9).blk t).view.emb (ix2 p (0 : Fin 1) : S1024x1.Idx)) 0).val = (t.val / 16) * 1024 + p.val := by
  show win0_9.index t (0 : Fin 2) * 1024 + 1 * p.val = _
  rw [(idx9 t).1]; omega

/-- The same as an equation of indices: the element sits at row `rowOf t p` of the one column. -/
theorem emb8_eq (t : Fin cfg0.N) (p : Fin 1024) :
    ((cfg0.win 8).blk t).view.emb (ix2 p (0 : Fin 1) : S1024x1.Idx) = ix2 (rowOf t p) (0 : Fin 1) := by
  funext a
  apply Fin.ext
  match a with
  | ⟨0, _⟩ => exact emb8 t p
  | ⟨1, _⟩ =>
    show win0_8.index t (1 : Fin 2) * 1 + 1 * 0 = 0
    rw [(idx8 t).2]

theorem emb9_eq (t : Fin cfg0.N) (p : Fin 1024) :
    ((cfg0.win 9).blk t).view.emb (ix2 p (0 : Fin 1) : S1024x1.Idx) = ix2 (rowOf t p) (0 : Fin 1) := by
  funext a
  apply Fin.ext
  match a with
  | ⟨0, _⟩ => exact emb9 t p
  | ⟨1, _⟩ =>
    show win0_9.index t (1 : Fin 2) * 1 + 1 * 0 = 0
    rw [(idx9 t).2]

end Cert.KernelIdeal.Cover

end
-- ==== Proof.TailValue.lean ====
/-
  The host operations that follow the kernel region, read at an index.

  The region leaves two columns of 8192 numbers: `P`, a row's masked sum of similarities, and `A`, its
  plain sum.  The host then adds the literal `ε` to `A`, divides `P` by that, takes the logarithm, negates,
  sums the whole column from the literal zero, and divides by the literal `8192.0`.  Row by row the first
  four steps are the specification's loss of a row; a column has one entry per row, so the sum over the
  whole column is the sum over the rows; the literal zero is the number zero and drops out.  What results
  is the mean of the row losses.
-/
import proofs.«114137_j7370163880494_2_alg».proof.KernelIdeal
import proofs.«114137_j7370163880494_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.TailValue

variable [Cert.KernelIdeal.Facts]

open Cert.KernelIdeal Cert.KernelIdeal.Facts₀ Idealize.ShloMosaic Idealize.ShloMosaic.ValueIdx Cert.Fuzzy

/-- The literal `ε` spread over the column stands at every index. -/
theorem epsCol_at (i : S8192x1.Idx) :
    broadcastInDim S8192x1 ![] bcast_S_S8192x1 (constant (F := Ideal) S_ .f32 0x322BCC77#32) i = eps := by
  rw [broadcastInDim_apply _ bcast_S_S8192x1 _ i (fun a => a.elim0) (fun a => a.elim0), constant_apply]
  rfl

/-- Add `ε`, divide, take the logarithm, negate: at each index the loss of that row's two sums. -/
theorem lossCol_at (P A : FVec Ideal S8192x1 .f32) (i : S8192x1.Idx) :
    Host.negf (Host.log (Host.divf P (addf A
        (broadcastInDim S8192x1 ![] bcast_S_S8192x1 (constant (F := Ideal) S_ .f32 0x322BCC77#32))))) i
      = rowLoss (P i) (A i) := by
  show -(Ideal.log (Ideal.div (P i)
    (A i + broadcastInDim S8192x1 ![] bcast_S_S8192x1 (constant (F := Ideal) S_ .f32 0x322BCC77#32) i))) = _
  rw [epsCol_at]
  rfl

/-- The sum of a whole column from the literal zero is the sum of its entries over the rows: the
    column's index set is the rows times the one column, and the start value is the number zero. -/
theorem colSum (Y : FVec Ideal S8192x1 .f32) (i : S_.Idx) :
    Host.reduceAdd (F := Ideal) Y (constant (F := Ideal) S_ .f32 0x00000000#32) reducesTo_S8192x1_S_d0_1 h_S_ i
      = ∑ r : Fin 8192, Y (ix2 r (0 : Fin 1)) := by
  unfold Host.reduceAdd
  rw [Ideal.hostReduceAdd_def, Ideal.hostReduceAdd_total reducesTo_S8192x1_S_d0_1 (fun b => b.elim0) Y _ i,
    constant_apply, Ideal.ofBits_zero_f32, zero_add, sum_idx2]
  exact Finset.sum_congr rfl fun r _ => Fin.sum_univ_one _

/-- THE HOST TAIL: from the two columns of sums to the mean of the row losses. -/
theorem tail_value (P A : FVec Ideal S8192x1 .f32) :
    Host.divf (F := Ideal) (Host.reduceAdd (F := Ideal) (Host.negf (Host.log (Host.divf P (addf A (broadcastInDim S8192x1 ![] bcast_S_S8192x1 (constant (F := Ideal) S_ .f32 0x322BCC77#32))))))
        (constant (F := Ideal) S_ .f32 0x00000000#32) reducesTo_S8192x1_S_d0_1 h_S_) (constant (F := Ideal) S_ .f32 0x46000000#32)
      = fun _ => Ideal.div (∑ r : Fin 8192, Cert.Fuzzy.rowLoss (P (ValueIdx.ix2 r (0 : Fin 1))) (A (ValueIdx.ix2 r (0 : Fin 1)))) Cert.Fuzzy.cnt := by
  funext i
  show Ideal.div (Host.reduceAdd (F := Ideal) _ (constant (F := Ideal) S_ .f32 0x00000000#32) reducesTo_S8192x1_S_d0_1 h_S_ i)
    (constant (F := Ideal) S_ .f32 0x46000000#32 i) = _
  rw [colSum, constant_apply]
  refine congrArg (Ideal.div · _) (Finset.sum_congr rfl fun r _ => ?_)
  exact lossCol_at P A _

end Cert.KernelIdeal.TailValue

end
-- ==== Proof.KV.Final.lean ====
/-
  The two accumulator arrays after the run, and the kernel's result.

  An accumulator's block is written back after column-block 15, when its row entries are the running sums over all
  sixteen blocks of 512 columns, that is the sums over all 8192 columns: the specification's masked and plain sums
  of the row.  The eight write-back points cover the array, so the array is those sums row by row; and the later
  host operations turn the two columns of sums into the mean row loss.
-/
import proofs.«114137_j7370163880494_2_alg».proof.Proof.KV.Fold
import proofs.«114137_j7370163880494_2_alg».proof.Proof.KV.Tail
import proofs.«114137_j7370163880494_2_alg».proof.Proof.Val.Cover
import proofs.«114137_j7370163880494_2_alg».proof.Proof.TailValue

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Fuzzy

variable (m : (ℓ : Loc nD τ sig) → Buf (Elt Ideal) ℓ) (c : Dev nD)

open Cert.KernelIdeal.PayValue Cert.KernelIdeal.Blocks Cert.KernelIdeal.Prefix Cert.KernelIdeal.Cover

/-- The masked sums, as a column. -/
def Gpos : FVec Ideal S8192x1 .f32 := fun i => pos (xs m c) (lab m c) ⟨(i 0).val, idx2_lt0 i⟩
/-- The plain sums, as a column. -/
def Gtot : FVec Ideal S8192x1 .f32 := fun i => tot (xs m c) ⟨(i 0).val, idx2_lt0 i⟩

/-- What a write-back point writes of the first accumulator is its block of the masked sums. -/
theorem flushed8_eq (hx : ∀ r k, xs m c r k ≠ ⊤ ∧ xs m c r k ≠ ⊥) (t : Fin cfg0.N) (hf : (cfg0.win 8).flush t = true) :
    (dats m 0 c).flushed 8 t = ((cfg0.win 8).blk t).view.read (Elt Ideal) (Gpos m c) := by
  have h15 : t.val % 16 = 15 := (flush0_8 t).mp hf
  show (cfg0.win 8).cut (grid0.coords t) ((dats m 0 c).after 8 t) = _
  rw [after0_8]
  funext j
  obtain ⟨p, u, rfl⟩ : ∃ (p : Fin 1024) (u : Fin 1), j = ix2 p u := ⟨j 0, j 1, eq_ix2 j⟩
  obtain rfl : u = 0 := Subsingleton.elim _ _
  rw [View.read_apply]
  show (outsAt0 m c t.val t.isLt).1 (ix2 p (0 : Fin 1)) = Gpos m c (((cfg0.win 8).blk t).view.emb (ix2 p (0 : Fin 1)))
  rw [(fold m c hx t.val t.isLt p).1, h15, acc_blocks]
  show pos (xs m c) (lab m c) (rowOf t p) = pos (xs m c) (lab m c) _
  refine congrArg (pos (xs m c) (lab m c)) (Fin.ext ?_)
  show t.val / 16 * 1024 + p.val = win0_8.index t (0 : Fin 2) * 1024 + 1 * p.val
  rw [(idx8 t).1]; omega

/-- And of the second its block of the plain sums. -/
theorem flushed9_eq (hx : ∀ r k, xs m c r k ≠ ⊤ ∧ xs m c r k ≠ ⊥) (t : Fin cfg0.N) (hf : (cfg0.win 9).flush t = true) :
    (dats m 0 c).flushed 9 t = ((cfg0.win 9).blk t).view.read (Elt Ideal) (Gtot m c) := by
  have h15 : t.val % 16 = 15 := (flush0_9 t).mp hf
  show (cfg0.win 9).cut (grid0.coords t) ((dats m 0 c).after 9 t) = _
  rw [after0_9]
  funext j
  obtain ⟨p, u, rfl⟩ : ∃ (p : Fin 1024) (u : Fin 1), j = ix2 p u := ⟨j 0, j 1, eq_ix2 j⟩
  obtain rfl : u = 0 := Subsingleton.elim _ _
  rw [View.read_apply]
  show (outsAt0 m c t.val t.isLt).2 (ix2 p (0 : Fin 1)) = Gtot m c (((cfg0.win 9).blk t).view.emb (ix2 p (0 : Fin 1)))
  rw [(fold m c hx t.val t.isLt p).2, h15, acc_blocks]
  show tot (xs m c) (rowOf t p) = tot (xs m c) _
  refine congrArg (tot (xs m c)) (Fin.ext ?_)
  show t.val / 16 * 1024 + p.val = win0_9.index t (0 : Fin 2) * 1024 + 1 * p.val
  rw [(idx9 t).1]; omega

/-- The first accumulator's array ends at the masked sums. -/
theorem final8 (hx : ∀ r k, xs m c r k ≠ ⊤ ∧ xs m c r k ≠ ⊥) : (dats m 0 c).arrAt 8 cfg0.N = Gpos m c :=
  (dats m 0 c).arrAt_eq_of_cover 8 (Gpos m c) (flushed8_eq m c hx) cover8
/-- The second's at the plain sums. -/
theorem final9 (hx : ∀ r k, xs m c r k ≠ ⊤ ∧ xs m c r k ≠ ⊥) : (dats m 0 c).arrAt 9 cfg0.N = Gtot m c :=
  (dats m 0 c).arrAt_eq_of_cover 9 (Gtot m c) (flushed9_eq m c hx) cover9

/-- THE KERNEL'S VALUE: when every entry of the matrix is a real number, the result buffer ends at the
    specification's mean loss. -/
theorem kernel_value (hx : ∀ r k, xs m c r k ≠ ⊤ ∧ xs m c r k ≠ ⊥) :
    tail (F := Ideal) ((dats m 0 c).arrAt 8 cfg0.N) ((dats m 0 c).arrAt 9 cfg0.N) = fun _ => loss (xs m c) (lab m c) := by
  rw [final8 m c hx, final9 m c hx]
  exact (Cert.KernelIdeal.TailValue.tail_value (Gpos m c) (Gtot m c)).trans rfl

end Cert.KernelIdeal.KVal

end
-- ==== Proof.RefValue.lean ====
/-
  The reference program's result, read stage by stage at an index, is the specification's loss.

  The reference computes, for a matrix of 8192 rows and 768 columns and a label per row:
  the column of squared row norms, the matrix of their pairwise sums, the Gram matrix, the squared
  distances by the polarisation formula, the similarities exp(-d / 2), the zero/one matrix of
  equal labels, the masked and the plain row sums of the similarities, per row
  -log (masked / (plain + eps)), and the mean of these 8192 numbers.

  Each lemma below reads ONE intermediate array at an index given by coordinates and says which
  quantity of the specification stands there.  Two kinds of step occur.  An elementwise operation
  reads its operands at the same index.  A layout operation (broadcast, transpose) or a sum reads
  its operand at an index computed from the result's index; for an index given by coordinates
  that computed index is again one given by coordinates, which the small index equations say.
  Every sum starts from the literal zero, which is the number zero, so the start value drops out.
-/
import proofs.«114137_j7370163880494_2_alg».proof.Proof.Gen.ReferenceIdeal.Read
import proofs.«114137_j7370163880494_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Fuzzy

/-! ## The arguments by coordinates -/

/-- The matrix argument as a function of the row and the column. -/
abbrev rows (x0 : (⟨S8192x768, .f32⟩ : BufTy).Contents (Elt Ideal)) : Fin 8192 → Fin 768 → EReal :=
  fun r k => x0 (ix2 r k)

/-- The label argument as a function of the row. -/
abbrev labels (x1 : (⟨S8192, .i32⟩ : BufTy).Contents (Elt Ideal)) : Fin 8192 → BitVec 32 :=
  fun r => x1 (ix1 r)

/-! ## A sum over a rank-1 index set is the sum over its coordinate -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → EReal) : ∑ i, f i = ∑ a : Fin n, f (ix1 a) :=
  (Equiv.sum_comp (idxEquiv1 (n := n)).symm f).symm

/-! ## The two words of a one-bit comparison, as numbers -/

/-- Comparing a word with itself for equality answers the bit one. -/
theorem cmpi_eq_self (a : BitVec 32) : IntOp.cmpi .eq a a = 1#1 := by
  unfold IntOp.cmpi
  rw [beq_self_eq_true]
  rfl

/-- Comparing two different words for equality answers the bit zero. -/
theorem cmpi_eq_of_ne {a b : BitVec 32} (h : a ≠ b) : IntOp.cmpi .eq a b = 0#1 := by
  unfold IntOp.cmpi
  rw [beq_eq_false_iff_ne.mpr h]
  rfl

/-- The bit one, read as an unsigned integer and made a float, is the number one. -/
theorem uitofp_one : FloatOps.uitofp (F := Ideal) .f32 (1#1 : BitVec 1) = 1 := by
  show ((((1#1 : BitVec 1).toNat : ℕ) : ℝ) : EReal) = 1
  rw [show (1#1 : BitVec 1).toNat = 1 by decide, Nat.cast_one, EReal.coe_one]

/-- The bit zero, read as an unsigned integer and made a float, is the number zero. -/
theorem uitofp_zero : FloatOps.uitofp (F := Ideal) .f32 (0#1 : BitVec 1) = 0 := by
  show ((((0#1 : BitVec 1).toNat : ℕ) : ℝ) : EReal) = 0
  rw [show (0#1 : BitVec 1).toNat = 0 by decide, Nat.cast_zero, EReal.coe_zero]

/-- So the equality test of two labels, made a float, is one where they agree and zero elsewhere. -/
theorem uitofp_cmpi_eq (a b : BitVec 32) :
    FloatOps.uitofp (F := Ideal) .f32 (IntOp.cmpi .eq a b) = if a = b then 1 else 0 := by
  by_cases h : a = b
  · rw [if_pos h, h, cmpi_eq_self, uitofp_one]
  · rw [if_neg h, cmpi_eq_of_ne h, uitofp_zero]

section Stages

variable (x0 : (⟨S8192x768, .f32⟩ : BufTy).Contents (Elt Ideal)) (x1 : (⟨S8192, .i32⟩ : BufTy).Contents (Elt Ideal))

/-! ## The squared norms and their pairwise sums -/

/-- Row `r`, column `k` of the matrix is where the norm's sum reads its `k`-th term. -/
theorem idx_v1 (r : Fin 8192) (k : Fin 768) : idx_main_v1 (ix1 r) k = ix2 r k :=
  funext fun a => by match a with | ⟨0, _⟩ => rfl | ⟨1, _⟩ => rfl

/-- The vector of squared norms holds the squared norm of row `r` at `r`: the sum over the columns of the squares. -/
theorem norm_at (r : Fin 8192) : val_main_v1 (F := Ideal) x0 (ix1 r) = nrm (rows x0) r := by
  rw [val_main_v1_apply, val_main_cst_apply, Ideal.ofBits_def, Ideal.ofBits_zero_f32, zero_add]
  refine Finset.sum_congr rfl fun k _ => ?_
  rw [val_main_v0_apply, Ideal.mulf_def, idx_v1]

theorem idx_v2 (r : Fin 8192) (z : Fin 1) : idx_main_v2 (ix2 r z) = ix1 r :=
  funext fun a => by match a with | ⟨0, _⟩ => rfl

/-- Kept as a column, the norms stand at `(r, 0)`. -/
theorem normCol_at (r : Fin 8192) (z : Fin 1) : val_main_v2 (F := Ideal) x0 (ix2 r z) = nrm (rows x0) r := by
  rw [val_main_v2_apply, idx_v2, norm_at]

theorem idx_v3 (z : Fin 1) (c : Fin 8192) : idx_main_v3 (ix2 z c) = ix2 c z :=
  funext fun a => by match a with | ⟨0, _⟩ => rfl | ⟨1, _⟩ => rfl

/-- Transposed into a row, the norms stand at `(0, c)`. -/
theorem normRow_at (z : Fin 1) (c : Fin 8192) : val_main_v3 (F := Ideal) x0 (ix2 z c) = nrm (rows x0) c := by
  rw [val_main_v3_apply, idx_v3, normCol_at]

theorem idx_v4 (r c : Fin 8192) : idx_main_v4 (ix2 r c) = ix2 r (0 : Fin 1) :=
  funext fun a => by match a with | ⟨0, _⟩ => rfl | ⟨1, _⟩ => rfl

/-- The column spread over all columns: entry `(r, c)` is the norm of row `r`. -/
theorem normLeft_at (r c : Fin 8192) : val_main_v4 (F := Ideal) x0 (ix2 r c) = nrm (rows x0) r := by
  rw [val_main_v4_apply, idx_v4, normCol_at]

theorem idx_v5 (r c : Fin 8192) : idx_main_v5 (ix2 r c) = ix2 (0 : Fin 1) c :=
  funext fun a => by match a with | ⟨0, _⟩ => rfl | ⟨1, _⟩ => rfl

/-- The row spread over all rows: entry `(r, c)` is the norm of row `c`. -/
theorem normRight_at (r c : Fin 8192) : val_main_v5 (F := Ideal) x0 (ix2 r c) = nrm (rows x0) c := by
  rw [val_main_v5_apply, idx_v5, normRow_at]

/-- Their sum: entry `(r, c)` is the squared norm of row `r` plus that of row `c`. -/
theorem normSum_at (r c : Fin 8192) :
    val_main_v6 (F := Ideal) x0 (ix2 r c) = nrm (rows x0) r + nrm (rows x0) c := by
  rw [val_main_v6_apply, Ideal.addf_def, normLeft_at, normRight_at]

/-! ## The Gram matrix -/

theorem idx_v7 (k : Fin 768) (c : Fin 8192) : idx_main_v7 (ix2 k c) = ix2 c k :=
  funext fun a => by match a with | ⟨0, _⟩ => rfl | ⟨1, _⟩ => rfl

/-- The transposed matrix holds `x c k` at `(k, c)`. -/
theorem transposed_at (k : Fin 768) (c : Fin 8192) : val_main_v7 (F := Ideal) x0 (ix2 k c) = rows x0 c k := by
  rw [val_main_v7_apply, idx_v7]

theorem lidx_v8 (r c : Fin 8192) (k : Fin 768) : lidx_main_v8 (ix2 r c) k = ix2 r k :=
  funext fun a => by match a with | ⟨0, _⟩ => rfl | ⟨1, _⟩ => rfl

theorem ridx_v8 (r c : Fin 8192) (k : Fin 768) : ridx_main_v8 (ix2 r c) k = ix2 k c :=
  funext fun a => by match a with | ⟨0, _⟩ => rfl | ⟨1, _⟩ => rfl

/-- The matrix product with the transpose: entry `(r, c)` is the inner product of rows `r` and `c`. -/
theorem gram_at (r c : Fin 8192) : val_main_v8 (F := Ideal) x0 (ix2 r c) = gram (rows x0) r c := by
  rw [val_main_v8_apply]
  refine Finset.sum_congr rfl fun k _ => ?_
  rw [lidx_v8, ridx_v8, transposed_at]

/-! ## Distances and similarities -/

/-- The literal `2.0`, spread over the matrix (the factor of the Gram entry). -/
theorem twoA_at (i : S8192x8192.Idx) : val_main_v9 (F := Ideal) i = two := by
  rw [val_main_v9_apply, val_main_cst_0_apply, Ideal.ofBits_def]
  rfl

/-- Entry `(r, c)` of the doubled Gram matrix. -/
theorem twoGram_at (r c : Fin 8192) : val_main_v10 (F := Ideal) x0 (ix2 r c) = two * gram (rows x0) r c := by
  rw [val_main_v10_apply, Ideal.mulf_def, twoA_at, gram_at]

/-- The squared distance at `(r, c)`: the sum of the two squared norms minus twice the inner product. -/
theorem dist_at (r c : Fin 8192) : val_main_v11 (F := Ideal) x0 (ix2 r c) = dist (rows x0) r c := by
  rw [val_main_v11_apply, Ideal.subf_def, normSum_at, twoGram_at]
  rfl

/-- Its negative. -/
theorem negDist_at (r c : Fin 8192) : val_main_v12 (F := Ideal) x0 (ix2 r c) = -(dist (rows x0) r c) := by
  rw [val_main_v12_apply, Ideal.hostNegf_def, Ideal.negf_def, dist_at]

/-- The literal `2.0` again (the divisor, twice the squared width, the width being one). -/
theorem twoB_at (i : S8192x8192.Idx) : val_main_v13 (F := Ideal) i = two := by
  rw [val_main_v13_apply, val_main_cst_1_apply, Ideal.ofBits_def]
  rfl

/-- The exponent at `(r, c)`: minus the squared distance, over two. -/
theorem exponent_at (r c : Fin 8192) :
    val_main_v14 (F := Ideal) x0 (ix2 r c) = Ideal.div (-(dist (rows x0) r c)) two := by
  rw [val_main_v14_apply, Ideal.hostDivf_def, negDist_at, twoB_at]

/-- The similarity at `(r, c)`: the exponential of that exponent. -/
theorem sim_at (r c : Fin 8192) : val_main_v15 (F := Ideal) x0 (ix2 r c) = sim (rows x0) r c := by
  rw [val_main_v15_apply, Ideal.hostUnary_exp_def, exponent_at]
  rfl

/-! ## The mask of equal labels -/

theorem idx_v16 (r : Fin 8192) (z : Fin 1) : idx_main_v16 (ix2 r z) = ix1 r :=
  funext fun a => by match a with | ⟨0, _⟩ => rfl

/-- The labels as a column. -/
theorem labCol_at (r : Fin 8192) (z : Fin 1) : val_main_v16 (F := Ideal) x1 (ix2 r z) = labels x1 r := by
  rw [val_main_v16_apply, idx_v16]

theorem idx_v17 (z : Fin 1) (c : Fin 8192) : idx_main_v17 (ix2 z c) = ix1 c :=
  funext fun a => by match a with | ⟨0, _⟩ => rfl

/-- The labels as a row. -/
theorem labRow_at (z : Fin 1) (c : Fin 8192) : val_main_v17 (F := Ideal) x1 (ix2 z c) = labels x1 c := by
  rw [val_main_v17_apply, idx_v17]

theorem idx_v18 (r c : Fin 8192) : idx_main_v18 (ix2 r c) = ix2 r (0 : Fin 1) :=
  funext fun a => by match a with | ⟨0, _⟩ => rfl | ⟨1, _⟩ => rfl

/-- The column spread over all columns: entry `(r, c)` is the label of row `r`. -/
theorem labLeft_at (r c : Fin 8192) : val_main_v18 (F := Ideal) x1 (ix2 r c) = labels x1 r := by
  rw [val_main_v18_apply, idx_v18, labCol_at]

theorem idx_v19 (r c : Fin 8192) : idx_main_v19 (ix2 r c) = ix2 (0 : Fin 1) c :=
  funext fun a => by match a with | ⟨0, _⟩ => rfl | ⟨1, _⟩ => rfl

/-- The row spread over all rows: entry `(r, c)` is the label of row `c`. -/
theorem labRight_at (r c : Fin 8192) : val_main_v19 (F := Ideal) x1 (ix2 r c) = labels x1 c := by
  rw [val_main_v19_apply, idx_v19, labRow_at]

/-- The comparison made a float: one where rows `r` and `c` carry the same label, zero elsewhere. -/
theorem same_at (r c : Fin 8192) : val_main_v21 (F := Ideal) x1 (ix2 r c) = same (labels x1) r c := by
  rw [val_main_v21_apply, val_main_v20_apply, labLeft_at, labRight_at, uitofp_cmpi_eq]
  rfl

/-- The masked similarity at `(r, c)`. -/
theorem masked_at (r c : Fin 8192) :
    val_main_v22 (F := Ideal) x0 x1 (ix2 r c) = sim (rows x0) r c * same (labels x1) r c := by
  rw [val_main_v22_apply, Ideal.mulf_def, sim_at, same_at]

/-! ## The two row sums and the row's loss -/

theorem idx_v23 (r c : Fin 8192) : idx_main_v23 (ix1 r) c = ix2 r c :=
  funext fun a => by match a with | ⟨0, _⟩ => rfl | ⟨1, _⟩ => rfl

/-- The masked row sum at `r`. -/
theorem pos_at (r : Fin 8192) : val_main_v23 (F := Ideal) x0 x1 (ix1 r) = pos (rows x0) (labels x1) r := by
  rw [val_main_v23_apply, val_main_cst_2_apply, Ideal.ofBits_def, Ideal.ofBits_zero_f32, zero_add]
  refine Finset.sum_congr rfl fun c _ => ?_
  rw [idx_v23, masked_at]

theorem idx_v24 (r c : Fin 8192) : idx_main_v24 (ix1 r) c = ix2 r c :=
  funext fun a => by match a with | ⟨0, _⟩ => rfl | ⟨1, _⟩ => rfl

/-- The plain row sum at `r`. -/
theorem tot_at (r : Fin 8192) : val_main_v24 (F := Ideal) x0 (ix1 r) = tot (rows x0) r := by
  rw [val_main_v24_apply, val_main_cst_3_apply, Ideal.ofBits_def, Ideal.ofBits_zero_f32, zero_add]
  refine Finset.sum_congr rfl fun c _ => ?_
  rw [idx_v24, sim_at]

/-- The literal `ε`, spread over the rows. -/
theorem eps_at (i : S8192.Idx) : val_main_v25 (F := Ideal) i = eps := by
  rw [val_main_v25_apply, val_main_cst_4_apply, Ideal.ofBits_def]
  rfl

/-- The row's loss at `r`, minus the logarithm of the masked sum over the plain sum plus `ε`:
    four elementwise steps (add, divide, logarithm, negate). -/
theorem rowLoss_at (r : Fin 8192) :
    val_main_v29 (F := Ideal) x0 x1 (ix1 r) = rowLoss (pos (rows x0) (labels x1) r) (tot (rows x0) r) := by
  rw [val_main_v29_apply, Ideal.hostNegf_def, Ideal.negf_def, val_main_v28_apply, Ideal.hostUnary_log_def,
    val_main_v27_apply, Ideal.hostDivf_def, val_main_v26_apply, Ideal.addf_def, pos_at, tot_at, eps_at]
  rfl

/-! ## The mean -/

/-- The sum of the row losses (the scalar result of the last sum). -/
theorem lossSum_at (i : S_.Idx) :
    val_main_v30 (F := Ideal) x0 x1 i = ∑ r : Fin 8192, rowLoss (pos (rows x0) (labels x1) r) (tot (rows x0) r) := by
  rw [val_main_v30_apply, val_main_cst_5_apply, Ideal.ofBits_def, Ideal.ofBits_zero_f32, zero_add, sum_idx1]
  exact Finset.sum_congr rfl fun r _ => rowLoss_at x0 x1 r

end Stages

/-- THE REFERENCE'S RESULT: the sum of the row losses divided by the literal `8192.0`, which is the
    specification's loss of the matrix and the labels read by coordinates. -/
theorem ref_value (x0 : (⟨Cert.ReferenceIdeal.S8192x768, .f32⟩ : BufTy).Contents (Elt Ideal))
    (x1 : (⟨Cert.ReferenceIdeal.S8192, .i32⟩ : BufTy).Contents (Elt Ideal)) :
    Cert.ReferenceIdeal.Read.val_main_v31 (F := Ideal) x0 x1
      = fun _ => Cert.Fuzzy.loss (fun r k => x0 (ValueIdx.ix2 r k)) (fun r => x1 (ValueIdx.ix1 r)) := by
  funext i
  rw [val_main_v31_apply, Ideal.hostDivf_def, lossSum_at, val_main_cst_6_apply, Ideal.ofBits_def]
  rfl

end Cert.ReferenceIdeal.RefValue

end
-- ==== Proof.Val.Finite.lean ====
/-
  From the precondition to: every entry of the matrix is a real number.

  The precondition compares the absolute value of every entry with the literal for plus infinity,
  strictly, and takes the conjunction of the 8192 times 768 answers from the bit one.  If that
  conjunction is the bit one then every answer was: each entry's absolute value lies strictly below
  the top element.  The literal denotes the top element, the absolute value is the larger of the entry
  and its negative, so neither the entry nor its negative is the top element: the entry is neither
  plus nor minus infinity.
-/
import proofs.«114137_j7370163880494_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Facts Idealize.ShloMosaic Idealize.ShloMosaic.ValueIdx

variable [Cert.Pre_finite_inputs.Facts]

/-- The scalar shape has one index. -/
instance : Subsingleton S_.Idx := ⟨fun _ _ => funext fun d => d.elim0⟩

/-- The word of plus infinity denotes the top element. -/
theorem inf_eq : Ideal.ofBits .f32 0x7F800000#32 = ⊤ := by
  simp [Ideal.ofBits, Ideal.ieee]

/-- An ordered "less than" that answers the bit one holds. -/
theorem lt_of_cmp_olt {x y : EReal} (h : Ideal.cmp .olt x y = 1#1) : x < y := by
  have h' : BitVec.ofBool (decide (x < y)) = 1#1 := h
  by_contra hn
  rw [decide_eq_false hn] at h'
  exact absurd h' (by decide)

/-- An extended real whose absolute value (the larger of it and its negative) lies strictly below
    the top element is neither infinity. -/
theorem real_of_abs_lt_top (a : EReal) (h : max a (-a) < ⊤) : a ≠ ⊤ ∧ a ≠ ⊥ := by
  obtain ⟨h1, h2⟩ := max_lt_iff.mp h
  refine ⟨h1.ne, fun hb => ?_⟩
  rw [hb, EReal.neg_bot] at h2
  exact lt_irrefl _ h2

/-- THE PRECONDITION READ BACK: if the printed predicate answers the bit one, every entry of the
    matrix is a real number. -/
theorem real_of_pre (x0 : FVec Ideal S8192x768 .f32) (x1 : IVec S8192 32)
    (h : Cert.Pre_finite_inputs.fn (F := Ideal) x0 x1 = fun _ => 1#1) : ∀ i, x0 i ≠ ⊤ ∧ x0 i ≠ ⊥ := by
  intro i
  have h0 := congrFun h ix0
  dsimp only [fn] at h0
  have hi := Host.reduce_andi_all _ _ _ _ _ h0 i
  have hc : Ideal.cmp .olt (max (x0 i) (-(x0 i))) (Ideal.ofBits .f32 0x7F800000#32) = 1#1 := hi
  have hlt := lt_of_cmp_olt hc
  rw [inf_eq] at hlt
  exact real_of_abs_lt_top _ hlt

end Cert.Pre_finite_inputs.Finite

end
-- ==== Proof.lean ====
/-
  The certificate of the fuzzy-contrastive-loss kernel against its jnp reference.

  The kernel tiles the 8192 × 8192 matrix of similarities `exp (−‖x_r − x_c‖² / 2)` into 1024 × 512 tiles on an
  8 × 16 grid and keeps, per row, the running sums of a row-block's similarities — all of them, and those to rows of
  the same label — in two accumulators that are reset at column-block 0 and written back after column-block 15; the
  host then takes `−log (pos / (all + ε))` per row and the mean.  It forms each inner product as three products of
  a high and a low part of the matrix (`x` rounded to half precision, and the rounding's remainder).  The reference
  computes the whole matrix of similarities at once.

  At the exact instance a change of format is the identity, so the high part is `x` and the low part is `x − x`,
  which is zero because the precondition makes every entry of `x` a real number: the three products collapse to the
  one inner product.  The kernel's factor −1/2 is the reference's division of the negated distance by 2.  A row's
  sixteen partial sums of 512 terms, added left to right, are its sum of 8192 terms.  So both programs end at the same
  mean loss, stated once in `Cert.Fuzzy.loss`.

  The three frames.  The kernel's two pairs of input windows read one array each, so the pipeline's launch is taken
  at half shares of those arrays (`Hand.run_main`, for the word-level program and for its idealization alike), the
  body is run once per case of its one branch, and the host operations after the region run within the accumulators'
  arrays and the bypassing buffers.  The reference is a straight line of host operations.  The idealization rewrote
  nothing, so `preserves` asks nothing.
-/
import proofs.«114137_j7370163880494_2_alg».proof.Defs
import proofs.«114137_j7370163880494_2_alg».proof.Proof.Gen.Kernel
import proofs.«114137_j7370163880494_2_alg».proof.Proof.Gen.KernelIdeal
import proofs.«114137_j7370163880494_2_alg».proof.Proof.Gen.ReferenceIdeal
import proofs.«114137_j7370163880494_2_alg».proof.Proof.Gen.ReferenceIdeal.Run
import proofs.«114137_j7370163880494_2_alg».proof.Proof.Gen.ReferenceIdeal.Read
import proofs.«114137_j7370163880494_2_alg».proof.Proof.Gen.Pre_finite_inputs
import proofs.«114137_j7370163880494_2_alg».proof.Proof.K.Frame
import proofs.«114137_j7370163880494_2_alg».proof.Proof.KI.Frame
import proofs.«114137_j7370163880494_2_alg».proof.Proof.KV.Final
import proofs.«114137_j7370163880494_2_alg».proof.Proof.RefValue
import proofs.«114137_j7370163880494_2_alg».proof.Proof.Val.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the exact instance, from memories that agree on the arguments and under the precondition, both programs end at
    the specification's mean loss: the kernel by its frame run read at the result buffer (`kernel_value`), the
    reference by its run read one operation at a time (`ref_value`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hx : ∀ c r k, Cert.KernelIdeal.KVal.xs m c r k ≠ ⊤ ∧ Cert.KernelIdeal.KVal.xs m c r k ≠ ⊥ :=
    fun c r k => Cert.Pre_finite_inputs.Finite.real_of_pre _ _ (hpre c) (ValueIdx.ix2 r k)
  refine ⟨fun c => fun _ => Cert.Fuzzy.loss (Cert.KernelIdeal.KVal.xs m c) (Cert.KernelIdeal.KVal.lab m c), ?_, ?_⟩
  · exact (θ_run Cert.KernelIdeal.defs _ _).mono
      (fun _ h c => ⟨(h c).1.trans (Cert.KernelIdeal.KVal.kernel_value m c (hx c)), (h c).2.1, (h c).2.2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v31_eq, Cert.ReferenceIdeal.RefValue.ref_value, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
